-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x400 : Shape := ⟨2, ![128, 400]⟩
abbrev S400 : Shape := ⟨1, ![400]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x400 : S_.BroadcastsInDim S128x400 (![] : Fin 0 → Fin S128x400.rank)
  reducesTo_S128x400_S_d0_1 : S128x400.ReducesTo [0, 1] S_
  bcast_S_S400 : S_.BroadcastsInDim S400 (![] : Fin 0 → Fin S400.rank)
  reducesTo_S400_S_d0 : S400.ReducesTo [0] S_

variable [Facts]

def fn_part3 {F : FTy → Type} [FloatOps F] (main_v48 : IVec S_ 1) (main_v49 : FVec F S400 .f32) (main_v50 : FVec F S400 .f32) : IVec S_ 1 :=
  let main_v51 : IVec S400 1 := cmpf .olt main_v49 main_v50
  let main_c_19 : IVec S_ 1 := constantI S_ 1 1#1
  let main_v52 : IVec S_ 1 := (fun x v => Host.reduce IntOp.andi x v reducesTo_S400_S_d0 h_S_) main_v51 main_c_19
  let main_v53 : IVec S_ 1 := andi main_v48 main_v52
  main_v53

def fn_part2 {F : FTy → Type} [FloatOps F] (main_arg8 : FVec F S128x400 .f32) (main_arg9 : FVec F S128x400 .f32) (main_arg10 : FVec F S128x400 .f32) (main_arg11 : FVec F S400 .f32) (main_v33 : IVec S_ 1) : IVec S_ 1 :=
  let main_v34 : FVec F S128x400 .f32 := Host.absf main_arg8
  let main_cst_12 : FVec F S_ .f32 := constant S_ .f32 0x7F800000#32
  let main_v35 : FVec F S128x400 .f32 := broadcastInDim S128x400 ![] bcast_S_S128x400 main_cst_12
  let main_v36 : IVec S128x400 1 := cmpf .olt main_v34 main_v35
  let main_c_13 : IVec S_ 1 := constantI S_ 1 1#1
  let main_v37 : IVec S_ 1 := (fun x v => Host.reduce IntOp.andi x v reducesTo_S128x400_S_d0_1 h_S_) main_v36 main_c_13
  let main_v38 : IVec S_ 1 := andi main_v33 main_v37
  let main_v39 : FVec F S128x400 .f32 := Host.absf main_arg9
  let main_cst_14 : FVec F S_ .f32 := constant S_ .f32 0x7F800000#32
  let main_v40 : FVec F S128x400 .f32 := broadcastInDim S128x400 ![] bcast_S_S128x400 main_cst_14
  let main_v41 : IVec S128x400 1 := cmpf .olt main_v39 main_v40
  let main_c_15 : IVec S_ 1 := constantI S_ 1 1#1
  let main_v42 : IVec S_ 1 := (fun x v => Host.reduce IntOp.andi x v reducesTo_S128x400_S_d0_1 h_S_) main_v41 main_c_15
  let main_v43 : IVec S_ 1 := andi main_v38 main_v42
  let main_v44 : FVec F S128x400 .f32 := Host.absf main_arg10
  let main_cst_16 : FVec F S_ .f32 := constant S_ .f32 0x7F800000#32
  let main_v45 : FVec F S128x400 .f32 := broadcastInDim S128x400 ![] bcast_S_S128x400 main_cst_16
  let main_v46 : IVec S128x400 1 := cmpf .olt main_v44 main_v45
  let main_c_17 : IVec S_ 1 := constantI S_ 1 1#1
  let main_v47 : IVec S_ 1 := (fun x v => Host.reduce IntOp.andi x v reducesTo_S128x400_S_d0_1 h_S_) main_v46 main_c_17
  let main_v48 : IVec S_ 1 := andi main_v43 main_v47
  let main_v49 : FVec F S400 .f32 := Host.absf main_arg11
  let main_cst_18 : FVec F S_ .f32 := constant S_ .f32 0x7F800000#32
  let main_v50 : FVec F S400 .f32 := broadcastInDim S400 ![] bcast_S_S400 main_cst_18
  fn_part3 (F := F) main_v48 main_v49 main_v50

def fn_part1 {F : FTy → Type} [FloatOps F] (main_arg5 : FVec F S128x400 .f32) (main_arg6 : FVec F S128x400 .f32) (main_arg7 : FVec F S400 .f32) (main_arg8 : FVec F S128x400 .f32) (main_arg9 : FVec F S128x400 .f32) (main_arg10 : FVec F S128x400 .f32) (main_arg11 : FVec F S400 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S128x400 .f32 := Host.absf main_arg5
  let main_cst_6 : FVec F S_ .f32 := constant S_ .f32 0x7F800000#32
  let main_v20 : FVec F S128x400 .f32 := broadcastInDim S128x400 ![] bcast_S_S128x400 main_cst_6
  let main_v21 : IVec S128x400 1 := cmpf .olt main_v19 main_v20
  let main_c_7 : IVec S_ 1 := constantI S_ 1 1#1
  let main_v22 : IVec S_ 1 := (fun x v => Host.reduce IntOp.andi x v reducesTo_S128x400_S_d0_1 h_S_) main_v21 main_c_7
  let main_v23 : IVec S_ 1 := andi main_v18 main_v22
  let main_v24 : FVec F S128x400 .f32 := Host.absf main_arg6
  let main_cst_8 : FVec F S_ .f32 := constant S_ .f32 0x7F800000#32
  let main_v25 : FVec F S128x400 .f32 := broadcastInDim S128x400 ![] bcast_S_S128x400 main_cst_8
  let main_v26 : IVec S128x400 1 := cmpf .olt main_v24 main_v25
  let main_c_9 : IVec S_ 1 := constantI S_ 1 1#1
  let main_v27 : IVec S_ 1 := (fun x v => Host.reduce IntOp.andi x v reducesTo_S128x400_S_d0_1 h_S_) main_v26 main_c_9
  let main_v28 : IVec S_ 1 := andi main_v23 main_v27
  let main_v29 : FVec F S400 .f32 := Host.absf main_arg7
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S1600000 .f32) (main_arg3 : FVec F S128x400 .f32) (main_arg4 : FVec F S400 .f32) (main_arg5 : FVec F S128x400 .f32) (main_arg6 : FVec F S128x400 .f32) (main_arg7 : FVec F S400 .f32) (main_arg8 : FVec F S128x400 .f32) (main_arg9 : FVec F S128x400 .f32) (main_arg10 : FVec F S128x400 .f32) (main_arg11 : FVec F S400 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x400 .f32 := Host.absf main_arg3
  let main_cst_2 : FVec F S_ .f32 := constant S_ .f32 0x7F800000#32
  let main_v10 : FVec F S128x400 .f32 := broadcastInDim S128x400 ![] bcast_S_S128x400 main_cst_2
  let main_v11 : IVec S128x400 1 := cmpf .olt main_v9 main_v10
  let main_c_3 : IVec S_ 1 := constantI S_ 1 1#1
  let main_v12 : IVec S_ 1 := (fun x v => Host.reduce IntOp.andi x v reducesTo_S128x400_S_d0_1 h_S_) main_v11 main_c_3
  let main_v13 : IVec S_ 1 := andi main_v8 main_v12
  let main_v14 : FVec F S400 .f32 := Host.absf main_arg4
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x400 : Shape := ⟨2, ![128, 400]⟩
abbrev S400 : Shape := ⟨1, ![400]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1200 : Shape := ⟨2, ![100000, 1200]⟩
abbrev S1000x128 : Shape := ⟨2, ![1000, 128]⟩
abbrev S1000x1200 : Shape := ⟨2, ![1000, 1200]⟩
abbrev S1000x400 : Shape := ⟨2, ![1000, 400]⟩
abbrev S1x400 : Shape := ⟨2, ![1, 400]⟩

abbrev nBuf : Space → Nat
  | .hbm => 106
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x400, .f32⟩
  | .hbm, ⟨4, _⟩ => ⟨S400, .f32⟩
  | .hbm, ⟨5, _⟩ => ⟨S128x400, .f32⟩
  | .hbm, ⟨6, _⟩ => ⟨S128x400, .f32⟩
  | .hbm, ⟨7, _⟩ => ⟨S400, .f32⟩
  | .hbm, ⟨8, _⟩ => ⟨S128x400, .f32⟩
  | .hbm, ⟨9, _⟩ => ⟨S128x400, .f32⟩
  | .hbm, ⟨10, _⟩ => ⟨S128x400, .f32⟩
  | .hbm, ⟨11, _⟩ => ⟨S400, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1600000, .i1⟩
  | .hbm, ⟨17, _⟩ => ⟨S_, .f32⟩
  | .hbm, ⟨18, _⟩ => ⟨S_, .f32⟩
  | .hbm, ⟨19, _⟩ => ⟨S1600000, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1600000, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000, .f32⟩
  | .hbm, ⟨60, _⟩ => ⟨S1600000, .f32⟩
  | .hbm, ⟨61, _⟩ => ⟨S1x1600000, .i32⟩
  | .hbm, ⟨62, _⟩ => ⟨S1600000, .i32⟩
  | .hbm, ⟨63, _⟩ => ⟨S1x1600000, .i32⟩
  | .hbm, ⟨64, _⟩ => ⟨S1600000, .i32⟩
  | .hbm, ⟨65, _⟩ => ⟨S1600000x1, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x1600000, .i32⟩
  | .hbm, ⟨82, _⟩ => ⟨S1600000, .i32⟩
  | .hbm, ⟨83, _⟩ => ⟨S1x1600000, .i32⟩
  | .hbm, ⟨84, _⟩ => ⟨S1600000, .i32⟩
  | .hbm, ⟨85, _⟩ => ⟨S1600000x1, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S1600000x128, .f32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S100000x1200, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S128x400, .f32⟩
  | .local _ .vmem, ⟨7, _⟩ => ⟨S400, .f32⟩
  | .local _ .vmem, ⟨8, _⟩ => ⟨S128x400, .f32⟩
  | .local _ .vmem, ⟨9, _⟩ => ⟨S128x400, .f32⟩
  | .local _ .vmem, ⟨10, _⟩ => ⟨S400, .f32⟩
  | .local _ .vmem, ⟨11, _⟩ => ⟨S128x400, .f32⟩
  | .local _ .vmem, ⟨12, _⟩ => ⟨S128x400, .f32⟩
  | .local _ .vmem, ⟨13, _⟩ => ⟨S128x400, .f32⟩
  | .local _ .vmem, ⟨14, _⟩ => ⟨S400, .f32⟩
  | .local _ .vmem, ⟨15, _⟩ => ⟨S1000x1200, .f32⟩
  | .local _ .vmem, ⟨16, _⟩ => ⟨S1000x1200, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S400 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x400 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S400 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x1200 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  shapeCasts_S1000x128_S1000x128 : S1000x128.ShapeCasts S1000x128
  inb_S128x400_S128x400_0_0 : ∀ a, (![0, 0] : Fin 2 → Nat) a + S128x400.size a ≤ S128x400.size a
  h_S128x400 : 0 < S128x400.numel
  inb_S400_S400_0 : ∀ a, (![0] : Fin 1 → Nat) a + S400.size a ≤ S400.size a
  h_S400 : 0 < S400.numel
  shapeCasts_S400_S1x400 : S400.ShapeCasts S1x400
  broadcasts_S1x400_S1000x400 : S1x400.Broadcasts S1000x400
  concatenates_S1000x400_S1000x400_S1000x400_S1000x1200_d1 : Shape.Concatenates [S1000x400, S1000x400, S1000x400] S1000x1200 1
  inb_S1000x1200_S1000x1200_0_0 : ∀ a, (![0, 0] : Fin 2 → Nat) a + S1000x1200.size a ≤ S1000x1200.size a
  h_S1000x1200 : 0 < S1000x1200.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x400_S1000x400_1_0_0_1_n_n_wf : DotDims.WF S1000x128 S128x400 S1000x400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S100000x128.size a
  hwx0_1 : ∀ i : grid0.Coords, EltTy.bits .f32 = 32 ∨ (Rect.block (s := S100000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x400.size a ≤ S128x400.size a
  hwx0_3 : ∀ i : grid0.Coords, EltTy.bits .f32 = 32 ∨ (Rect.block (s := S128x400) S128x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S400.size a ≤ S400.size a
  hwx0_4 : ∀ i : grid0.Coords, EltTy.bits .f32 = 32 ∨ (Rect.block (s := S400) S400.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x400.size a ≤ S128x400.size a
  hwx0_5 : ∀ i : grid0.Coords, EltTy.bits .f32 = 32 ∨ (Rect.block (s := S128x400) S128x400.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x400.size a ≤ S128x400.size a
  hwx0_6 : ∀ i : grid0.Coords, EltTy.bits .f32 = 32 ∨ (Rect.block (s := S128x400) S128x400.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400.size a ≤ S400.size a
  hwx0_7 : ∀ i : grid0.Coords, EltTy.bits .f32 = 32 ∨ (Rect.block (s := S400) S400.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x400.size a ≤ S128x400.size a
  hwx0_8 : ∀ i : grid0.Coords, EltTy.bits .f32 = 32 ∨ (Rect.block (s := S128x400) S128x400.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x400.size a ≤ S128x400.size a
  hwx0_9 : ∀ i : grid0.Coords, EltTy.bits .f32 = 32 ∨ (Rect.block (s := S128x400) S128x400.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x400.size a ≤ S128x400.size a
  hwx0_10 : ∀ i : grid0.Coords, EltTy.bits .f32 = 32 ∨ (Rect.block (s := S128x400) S128x400.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S400.size a ≤ S400.size a
  hwx0_11 : ∀ i : grid0.Coords, EltTy.bits .f32 = 32 ∨ (Rect.block (s := S400) S400.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x1200.size a ≤ S100000x1200.size a
  hwx0_12 : ∀ i : grid0.Coords, EltTy.bits .f32 = 32 ∨ (Rect.block (s := S100000x1200) S1000x1200.size (cc0_transform_12 i) (hinb0_12 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x400_S1000x400_1_0_0_1_n_n : DotDims S1000x128 S128x400 S1000x400 where
  lhsContracting := [1]
  rhsContracting := [0]
  lhsNonContracting := [0]
  rhsNonContracting := [1]
  lhsBatch := []
  rhsBatch := []
  wf := dot_S1000x128_S128x400_S1000x400_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v69) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S400.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v70) S1000x1200.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x400 : Shape := ⟨2, ![128, 400]⟩
abbrev S400 : Shape := ⟨1, ![400]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x400 : Shape := ⟨2, ![100000, 400]⟩
abbrev S1x400 : Shape := ⟨2, ![1, 400]⟩
abbrev S100000x1200 : Shape := ⟨2, ![100000, 1200]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x400, .f32⟩
  | .hbm, ⟨4, _⟩ => ⟨S400, .f32⟩
  | .hbm, ⟨5, _⟩ => ⟨S128x400, .f32⟩
  | .hbm, ⟨6, _⟩ => ⟨S128x400, .f32⟩
  | .hbm, ⟨7, _⟩ => ⟨S400, .f32⟩
  | .hbm, ⟨8, _⟩ => ⟨S128x400, .f32⟩
  | .hbm, ⟨9, _⟩ => ⟨S128x400, .f32⟩
  | .hbm, ⟨10, _⟩ => ⟨S128x400, .f32⟩
  | .hbm, ⟨11, _⟩ => ⟨S400, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1600000, .i1⟩
  | .hbm, ⟨17, _⟩ => ⟨S_, .f32⟩
  | .hbm, ⟨18, _⟩ => ⟨S_, .f32⟩
  | .hbm, ⟨19, _⟩ => ⟨S1600000, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1600000, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000, .f32⟩
  | .hbm, ⟨60, _⟩ => ⟨S1600000, .f32⟩
  | .hbm, ⟨61, _⟩ => ⟨S1x1600000, .i32⟩
  | .hbm, ⟨62, _⟩ => ⟨S1600000, .i32⟩
  | .hbm, ⟨63, _⟩ => ⟨S1x1600000, .i32⟩
  | .hbm, ⟨64, _⟩ => ⟨S1600000, .i32⟩
  | .hbm, ⟨65, _⟩ => ⟨S1600000x1, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x1600000, .i32⟩
  | .hbm, ⟨82, _⟩ => ⟨S1600000, .i32⟩
  | .hbm, ⟨83, _⟩ => ⟨S1x1600000, .i32⟩
  | .hbm, ⟨84, _⟩ => ⟨S1600000, .i32⟩
  | .hbm, ⟨85, _⟩ => ⟨S1600000x1, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S1600000x128, .f32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S100000x400, .f32⟩
  | .hbm, ⟨106, _⟩ => ⟨S1x400, .f32⟩
  | .hbm, ⟨107, _⟩ => ⟨S100000x400, .f32⟩
  | .hbm, ⟨108, _⟩ => ⟨S100000x400, .f32⟩
  | .hbm, ⟨109, _⟩ => ⟨S100000x400, .f32⟩
  | .hbm, ⟨110, _⟩ => ⟨S100000x400, .f32⟩
  | .hbm, ⟨111, _⟩ => ⟨S100000x400, .f32⟩
  | .hbm, ⟨112, _⟩ => ⟨S1x400, .f32⟩
  | .hbm, ⟨113, _⟩ => ⟨S100000x400, .f32⟩
  | .hbm, ⟨114, _⟩ => ⟨S100000x400, .f32⟩
  | .hbm, ⟨115, _⟩ => ⟨S100000x400, .f32⟩
  | .hbm, ⟨116, _⟩ => ⟨S100000x400, .f32⟩
  | .hbm, ⟨117, _⟩ => ⟨S100000x400, .f32⟩
  | .hbm, ⟨118, _⟩ => ⟨S100000x400, .f32⟩
  | .hbm, ⟨119, _⟩ => ⟨S100000x400, .f32⟩
  | .hbm, ⟨120, _⟩ => ⟨S1x400, .f32⟩
  | .hbm, ⟨121, _⟩ => ⟨S100000x400, .f32⟩
  | .hbm, ⟨122, _⟩ => ⟨S100000x400, .f32⟩
  | .hbm, ⟨123, _⟩ => ⟨S100000x1200, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_v15 : Ref sig .tc := ⟨.hbm, 39, rfl⟩
abbrev main_c : Ref sig .tc := ⟨.hbm, 40, rfl⟩
abbrev main_v16 : Ref sig .tc := ⟨.hbm, 41, rfl⟩
abbrev main_v17 : Ref sig .tc := ⟨.hbm, 42, rfl⟩
abbrev main_c_5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S400_S1x400_1 : S400.BroadcastsInDim S1x400 (![1] : Fin 1 → Fin S1x400.rank)
  bcast_S1x400_S100000x400_0_1 : S1x400.BroadcastsInDim S100000x400 (![0, 1] : Fin 2 → Fin S100000x400.rank)
  concatenates_S100000x400_S100000x400_S100000x400_S100000x1200_d1 : Shape.Concatenates [S100000x400, S100000x400, S100000x400] S100000x1200 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x400_S100000x400_1_0_0_1_n_n_wf : DotDims.WF S100000x128 S128x400 S100000x400 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x400_S100000x400_1_0_0_1_n_n : DotDims S100000x128 S128x400 S100000x400 where
  lhsContracting := [1]
  rhsContracting := [0]
  lhsNonContracting := [0]
  rhsNonContracting := [1]
  lhsBatch := []
  rhsBatch := []
  wf := dot_S100000x128_S128x400_S100000x400_1_0_0_1_n_n_wf

class Facts : Prop extends Facts₀ where

variable [Facts]
-- ==== Proof.Spec.lean ====
/-
  What the dense last stage computes, row by row.

  Each node has three feature rows of length 128 (the Chebyshev terms T0 x, T1 x, T2 x). The stage projects them with
  six 128 × 400 weight matrices and three biases into one output row of length 1200, laid out as three consecutive
  stretches of 400 columns:
    columns    0 …  399 :  r0 · W1 + b1
    columns  400 …  799 : (r0 · W2_0 + r1 · W2_1) + b2
    columns  800 … 1199 : ((r0 · W3_0 + r1 · W3_1) + r2 · W3_2) + b3
  where r · W at column c is the exact sum over k of r k · W (k, c) on the extended reals. The sums are grouped exactly
  as written, so no law of extended-real arithmetic is needed to compare two programs that both compute this row.
-/
import Idealize.ShloMosaic.PureOps.Ideal
import Idealize.ShloMosaic.Lib.ValueIdx

noncomputable section

namespace Cert.Cheb

open Idealize.ShloMosaic Idealize.ShloMosaic.ValueIdx

/-- A weight matrix: 128 input features by 400 output features. -/
abbrev Wt : Type := (⟨2, ![128, 400]⟩ : Shape).Idx → EReal
/-- A bias: one entry per output feature. -/
abbrev Bs : Type := (⟨1, ![400]⟩ : Shape).Idx → EReal

/-- A feature row against column `c` of a weight matrix. -/
def proj (row : Fin 128 → EReal) (W : Wt) (c : Fin 400) : EReal := ∑ k : Fin 128, row k * W (ix2 k c)

/-- The first stretch: the order-0 term alone. -/
def scale1 (r0 : Fin 128 → EReal) (W1 : Wt) (b1 : Bs) (c : Fin 400) : EReal := proj r0 W1 c + b1 (ix1 c)
/-- The second stretch: orders 0 and 1. -/
def scale2 (r0 r1 : Fin 128 → EReal) (W20 W21 : Wt) (b2 : Bs) (c : Fin 400) : EReal :=
  (proj r0 W20 c + proj r1 W21 c) + b2 (ix1 c)
/-- The third stretch: orders 0, 1 and 2. -/
def scale3 (r0 r1 r2 : Fin 128 → EReal) (W30 W31 W32 : Wt) (b3 : Bs) (c : Fin 400) : EReal :=
  ((proj r0 W30 c + proj r1 W31 c) + proj r2 W32 c) + b3 (ix1 c)

/-- The output row of a node from its three feature rows: the three stretches side by side. -/
def outRow (r0 r1 r2 : Fin 128 → EReal) (W1 : Wt) (b1 : Bs) (W20 W21 : Wt) (b2 : Bs) (W30 W31 W32 : Wt) (b3 : Bs)
    (q : Fin 1200) : EReal :=
  if h1 : q.val < 400 then scale1 r0 W1 b1 ⟨q.val, h1⟩
  else if h2 : q.val < 800 then scale2 r0 r1 W20 W21 b2 ⟨q.val - 400, by omega⟩
  else scale3 r0 r1 r2 W30 W31 W32 b3 ⟨q.val - 800, by have := q.isLt; omega⟩

theorem outRow_lo (r0 r1 r2 : Fin 128 → EReal) (W1 : Wt) (b1 : Bs) (W20 W21 : Wt) (b2 : Bs) (W30 W31 W32 : Wt) (b3 : Bs)
    (q : Fin 1200) (c : Fin 400) (h : q.val = c.val) :
    outRow r0 r1 r2 W1 b1 W20 W21 b2 W30 W31 W32 b3 q = scale1 r0 W1 b1 c := by
  have h1 : q.val < 400 := by have := c.isLt; omega
  unfold outRow
  rw [dif_pos h1]
  exact congrArg _ (Fin.ext h)

theorem outRow_mid (r0 r1 r2 : Fin 128 → EReal) (W1 : Wt) (b1 : Bs) (W20 W21 : Wt) (b2 : Bs) (W30 W31 W32 : Wt) (b3 : Bs)
    (q : Fin 1200) (c : Fin 400) (h : q.val = 400 + c.val) :
    outRow r0 r1 r2 W1 b1 W20 W21 b2 W30 W31 W32 b3 q = scale2 r0 r1 W20 W21 b2 c := by
  have h1 : ¬ q.val < 400 := by omega
  have h2 : q.val < 800 := by have := c.isLt; omega
  unfold outRow
  rw [dif_neg h1, dif_pos h2]
  exact congrArg _ (Fin.ext (by show q.val - 400 = c.val; omega))

theorem outRow_hi (r0 r1 r2 : Fin 128 → EReal) (W1 : Wt) (b1 : Bs) (W20 W21 : Wt) (b2 : Bs) (W30 W31 W32 : Wt) (b3 : Bs)
    (q : Fin 1200) (c : Fin 400) (h : q.val = 800 + c.val) :
    outRow r0 r1 r2 W1 b1 W20 W21 b2 W30 W31 W32 b3 q = scale3 r0 r1 r2 W30 W31 W32 b3 c := by
  have h1 : ¬ q.val < 400 := by omega
  have h2 : ¬ q.val < 800 := by omega
  unfold outRow
  rw [dif_neg h1, dif_neg h2]
  exact congrArg _ (Fin.ext (by show q.val - 800 = c.val; omega))

/-- Row `r` of a feature matrix with `n` rows. -/
abbrev rowOf {n : Nat} (x : (⟨2, ![n, 128]⟩ : Shape).Idx → EReal) (r : Fin n) : Fin 128 → EReal := fun k => x (ix2 r k)

/-- THE RESULT: the whole 100000 × 1200 output as one function of the three feature matrices, the weights and the biases. -/
def G (t0 t1 t2 : (⟨2, ![100000, 128]⟩ : Shape).Idx → EReal) (W1 : Wt) (b1 : Bs) (W20 W21 : Wt) (b2 : Bs) (W30 W31 W32 : Wt) (b3 : Bs) :
    (⟨2, ![100000, 1200]⟩ : Shape).Idx → EReal :=
  fun i => outRow (rowOf t0 ⟨(i 0).val, (i 0).isLt⟩) (rowOf t1 ⟨(i 0).val, (i 0).isLt⟩) (rowOf t2 ⟨(i 0).val, (i 0).isLt⟩)
    W1 b1 W20 W21 b2 W30 W31 W32 b3 ⟨(i 1).val, (i 1).isLt⟩

theorem G_ix2 (t0 t1 t2 : (⟨2, ![100000, 128]⟩ : Shape).Idx → EReal) (W1 : Wt) (b1 : Bs) (W20 W21 : Wt) (b2 : Bs) (W30 W31 W32 : Wt) (b3 : Bs)
    (r : Fin 100000) (q : Fin 1200) :
    G t0 t1 t2 W1 b1 W20 W21 b2 W30 W31 W32 b3 (ix2 r q) = outRow (rowOf t0 r) (rowOf t1 r) (rowOf t2 r) W1 b1 W20 W21 b2 W30 W31 W32 b3 q := rfl

end Cert.Cheb

end
-- ==== Proof.LibDot.lean ====
/-
  General lemma: a plain matrix product read at an entry.

  For the dimension numbers "rows × contraction times contraction × columns" with no batch axis, the kernel's matrix
  product into a zero accumulator and the host's `dot_general` are, at the ideal instance, the same exact sum: entry (p, q)
  is the sum over k of lhs (p, k) · rhs (k, q).
-/
import Idealize.ShloMosaic.PureOps.Ideal
import Idealize.ShloMosaic.PureOps.Ideal.Laws
import Idealize.ShloMosaic.Lib.ValueIdx

noncomputable section

namespace Cert.Lib.Dot

open Idealize.ShloMosaic Idealize.ShloMosaic.ValueIdx

variable {M K N : Nat} {φ₁ φ₂ : FTy}

/-- The left operand's index at result entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ =>
    exact ((DotDims.plain M K N).lhsIdx_val_of_single (cl := 1) rfl _ _).trans
      (contrEquiv1_symm_val (DotDims.plain M K N) K rfl rfl k)

/-- The right operand's index there is (k, q). -/
theorem plain_rhsIdx (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ =>
    exact ((DotDims.plain M K N).rhsIdx_val_of_single (cr := 0) rfl _ _).trans
      (contrEquiv1_symm_val (DotDims.plain M K N) K rfl rfl k)
  | ⟨1, _⟩ => rfl

/-- The kernel's product into a zero accumulator, at entry (p, q). -/
theorem matmul_plain_apply (prec : Option ContractPrecision) (lhs : FVec Ideal ⟨2, ![M, K]⟩ φ₁) (rhs : FVec Ideal ⟨2, ![K, N]⟩ φ₂)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's `dot_general`, at entry (p, q). -/
theorem dotGeneral_plain_apply (prec : Option ContractPrecision) (sched : HostSchedule) (lhs : FVec Ideal ⟨2, ![M, K]⟩ φ₁)
    (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) := by
  rw [Ideal.dotGeneral_apply, ← Equiv.sum_comp (contrEquiv1 (DotDims.plain M K N) K rfl rfl).symm]
  exact Finset.sum_congr rfl fun k _ => by rw [plain_lhsIdx, plain_rhsIdx]

end Cert.Lib.Dot

end
-- ==== Proof.LibConcat3.lean ====
/-
  General lemma: three matrices with the same number of rows set side by side, read at an entry.

  The concatenation along the columns of an n × w matrix A, an n × w matrix B and an n × w matrix C is an n × T matrix
  (T = 3 w). Its entry (p, q) is A (p, q) for q below w, B (p, q - w) for q from w up to 2 w, and C (p, q - 2 w) above.
  The second threshold is a parameter `o` (with o = w + w) so that a use at literal extents states it as a literal.
-/
import Idealize.ShloMosaic.Lib.Pipeline.Value
import Idealize.ShloMosaic.Lib.ValueIdx

noncomputable section

namespace Cert.Lib.Concat3

open Idealize.ShloMosaic Idealize.ShloMosaic.ValueIdx

variable {α : Type} {n : Nat}

/-- Entry (p, q) of [A | B | C]. -/
theorem cols_apply (w o T : Nat) (ho : o = w + w) (hT : T = o + w)
    (A B C : (⟨2, ![n, w]⟩ : Shape).Idx → α)
    (h : Shape.Concatenates ([(⟨⟨2, ![n, w]⟩, A⟩ : (s : Shape) × (s.Idx → α)), ⟨⟨2, ![n, w]⟩, B⟩, ⟨⟨2, ![n, w]⟩, C⟩].map (·.1)) ⟨2, ![n, T]⟩ 1)
    (p : Fin n) (q : Fin T) :
    concatenate ⟨2, ![n, T]⟩ 1 [(⟨⟨2, ![n, w]⟩, A⟩ : (s : Shape) × (s.Idx → α)), ⟨⟨2, ![n, w]⟩, B⟩, ⟨⟨2, ![n, w]⟩, C⟩] h (ix2 p q)
      = if h1 : q.val < w then A (ix2 p ⟨q.val, h1⟩)
        else if h2 : q.val < o then B (ix2 p ⟨q.val - w, by omega⟩)
        else C (ix2 p ⟨q.val - o, by have := q.isLt; omega⟩) := by
  have hq : q.val < T := q.isLt
  by_cases h1 : q.val < w
  · rw [dif_pos h1]
    exact concatenate_apply_piece (1 : Fin 2) [(⟨⟨2, ![n, w]⟩, A⟩ : (s : Shape) × (s.Idx → α)), ⟨⟨2, ![n, w]⟩, B⟩, ⟨⟨2, ![n, w]⟩, C⟩] h (ix2 p q) 0 (Nat.succ_pos 2) ⟨2, ![n, w]⟩ A rfl rfl 0 rfl (ix2 p ⟨q.val, h1⟩)
      (fun b hb => by
        match b with
        | ⟨0, _⟩ => rfl
        | ⟨1, _⟩ => exact absurd rfl hb)
      (Nat.zero_add _)
  · rw [dif_neg h1]
    by_cases h2 : q.val < o
    · rw [dif_pos h2]
      exact concatenate_apply_piece (1 : Fin 2) [(⟨⟨2, ![n, w]⟩, A⟩ : (s : Shape) × (s.Idx → α)), ⟨⟨2, ![n, w]⟩, B⟩, ⟨⟨2, ![n, w]⟩, C⟩] h (ix2 p q) 1 (Nat.succ_lt_succ (Nat.succ_pos 1)) ⟨2, ![n, w]⟩ B rfl rfl w rfl
        (ix2 p ⟨q.val - w, by omega⟩)
        (fun b hb => by
          match b with
          | ⟨0, _⟩ => rfl
          | ⟨1, _⟩ => exact absurd rfl hb)
        (by show w + (q.val - w) = q.val; omega)
    · rw [dif_neg h2]
      exact concatenate_apply_piece (1 : Fin 2) [(⟨⟨2, ![n, w]⟩, A⟩ : (s : Shape) × (s.Idx → α)), ⟨⟨2, ![n, w]⟩, B⟩, ⟨⟨2, ![n, w]⟩, C⟩] h (ix2 p q) 2 (Nat.lt_succ_self 2) ⟨2, ![n, w]⟩ C rfl rfl (w + w) rfl
        (ix2 p ⟨q.val - o, by omega⟩)
        (fun b hb => by
          match b with
          | ⟨0, _⟩ => rfl
          | ⟨1, _⟩ => exact absurd rfl hb)
        (by show w + w + (q.val - o) = q.val; omega)

end Cert.Lib.Concat3

end
-- ==== Proof.Payload.lean ====
/-
  The kernel body's one stored value, read at an entry.

  At a grid point the body loads a 1000-row block of each of the three feature matrices, the six weight matrices and the
  three biases, and stores one 1000 × 1200 block: three 1000 × 400 stretches side by side. Each stretch is a sum of
  matrix products into a zero accumulator plus a bias row repeated over the 1000 rows. The operands are rounded to bf16
  before each product; on the extended reals a change of float format is the identity, so entry (p, q) of the stored
  block is exactly `Cert.Cheb.outRow` of the three loaded rows p.
-/
import proofs.«121442_j27462020891069_1_alg».proof.Proof.Gen.KernelIdeal.Skeleton
import proofs.«121442_j27462020891069_1_alg».proof.Proof.Spec
import proofs.«121442_j27462020891069_1_alg».proof.Proof.LibDot
import proofs.«121442_j27462020891069_1_alg».proof.Proof.LibConcat3
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx Cert.Cheb

/-- One product of the body: a 1000 × 128 block times a 128 × 400 weight matrix into zero, at entry (p, c), is row p of
    the block against column c of the matrix. -/
theorem product_apply (x : FVec Ideal S1000x128 .f32) (w : FVec Ideal S128x400 .f32) (p : Fin 1000) (c : Fin 400) :
    matmul dot_S1000x128_S128x400_S1000x400_1_0_0_1_n_n none (truncf .bf16 x Facts₀.bitsLt_bf16_f32) (truncf .bf16 w Facts₀.bitsLt_bf16_f32)
      (constant S1000x400 .f32 0x00000000#32) (ix2 p c) = proj (rowOf x p) w c :=
  Cert.Lib.Dot.matmul_plain_apply (M := 1000) (K := 128) (N := 400) none (truncf .bf16 x Facts₀.bitsLt_bf16_f32)
    (truncf .bf16 w Facts₀.bitsLt_bf16_f32) p c

/-- A bias of length 400 laid out as one row and repeated over 1000 rows reads, at (p, c), its entry c. -/
theorem bias_apply (b : FVec Ideal S400 .f32) (p : Fin 1000) (c : Fin 400) :
    broadcastTo S1000x400 (shapeCast S1x400 b Facts₀.shapeCasts_S400_S1x400) Facts₀.broadcasts_S1x400_S1000x400 (ix2 p c) = b (ix1 c) :=
  (broadcastTo_1b_ab_apply (a := 1000) (b := 400) _ Facts₀.broadcasts_S1x400_S1000x400 p c).trans
    (shapeCast_a_1a_apply (a := 400) b Facts₀.shapeCasts_S400_S1x400 0 c)

/-- A block cast to its own shape is the block. -/
theorem product_cast_apply (x : FVec Ideal S1000x128 .f32) (w : FVec Ideal S128x400 .f32) (p : Fin 1000) (c : Fin 400) :
    matmul dot_S1000x128_S128x400_S1000x400_1_0_0_1_n_n none
      (truncf .bf16 (shapeCast S1000x128 x Facts₀.shapeCasts_S1000x128_S1000x128) Facts₀.bitsLt_bf16_f32) (truncf .bf16 w Facts₀.bitsLt_bf16_f32)
      (constant S1000x400 .f32 0x00000000#32) (ix2 p c) = proj (rowOf x p) w c := by
  rw [shapeCast_self]
  exact product_apply x w p c

/-- The first stretch at (p, c). -/
theorem stretch1_apply (x0 : FVec Ideal S1000x128 .f32) (w : FVec Ideal S128x400 .f32) (b : FVec Ideal S400 .f32)
    (p : Fin 1000) (c : Fin 400) :
    k0_pay6 (F := Ideal) x0 w b (ix2 p c) = scale1 (rowOf x0 p) w b c := by
  unfold k0_pay6 k0_pay2 scale1
  exact congrArg₂ (· + ·) (product_apply x0 w p c) (bias_apply b p c)

/-- The second stretch at (p, c). -/
theorem stretch2_apply (x0 x1 : FVec Ideal S1000x128 .f32) (w0 w1 : FVec Ideal S128x400 .f32) (b : FVec Ideal S400 .f32)
    (p : Fin 1000) (c : Fin 400) :
    k0_pay7 (F := Ideal) x0 x1 w0 w1 b (ix2 p c) = scale2 (rowOf x0 p) (rowOf x1 p) w0 w1 b c := by
  unfold k0_pay7 k0_pay2 k0_pay3 scale2
  exact congrArg₂ (· + ·) (congrArg₂ (· + ·) (product_apply x0 w0 p c) (product_cast_apply x1 w1 p c)) (bias_apply b p c)

/-- The third stretch at (p, c): the body assembles it from two products computed in its first part, a third product and
    the bias. -/
theorem stretch3_apply (x0 x1 x2 : FVec Ideal S1000x128 .f32) (w0 w1 w2 : FVec Ideal S128x400 .f32) (b : FVec Ideal S400 .f32)
    (p : Fin 1000) (c : Fin 400) :
    addf (addf (addf (k0_pay8 (F := Ideal) x0 w0) (k0_pay9 (F := Ideal) x1 w1))
        (matmul dot_S1000x128_S128x400_S1000x400_1_0_0_1_n_n none (k0_pay4 (F := Ideal) x2) (k0_pay5 (F := Ideal) w2) (constant S1000x400 .f32 0x00000000#32)))
        (broadcastTo S1000x400 (shapeCast S1x400 b Facts₀.shapeCasts_S400_S1x400) Facts₀.broadcasts_S1x400_S1000x400) (ix2 p c)
      = scale3 (rowOf x0 p) (rowOf x1 p) (rowOf x2 p) w0 w1 w2 b c := by
  unfold k0_pay8 k0_pay9 k0_pay4 k0_pay5 k0_pay2 k0_pay3 scale3
  exact congrArg₂ (· + ·) (congrArg₂ (· + ·) (congrArg₂ (· + ·) (product_apply x0 w0 p c) (product_cast_apply x1 w1 p c))
      (product_cast_apply x2 w2 p c)) (bias_apply b p c)

/-- THE STORED BLOCK at (p, q): the output row of the three loaded rows p. -/
theorem stored_apply (x0 x1 x2 : FVec Ideal S1000x128 .f32) (w1 : FVec Ideal S128x400 .f32) (b1 : FVec Ideal S400 .f32)
    (w20 w21 : FVec Ideal S128x400 .f32) (b2 : FVec Ideal S400 .f32) (w30 w31 w32 : FVec Ideal S128x400 .f32) (b3 : FVec Ideal S400 .f32)
    (p : Fin 1000) (q : Fin 1200) :
    k0_pay1 (F := Ideal) (k0_pay4 x2) (k0_pay5 w32) (k0_pay6 x0 w1 b1) (k0_pay7 x0 x1 w20 w21 b2) (k0_pay8 x0 w30) (k0_pay9 x1 w31) b3 (ix2 p q)
      = outRow (rowOf x0 p) (rowOf x1 p) (rowOf x2 p) w1 b1 w20 w21 b2 w30 w31 w32 b3 q := by
  unfold k0_pay1
  refine (Cert.Lib.Concat3.cols_apply (n := 1000) 400 800 1200 rfl rfl _ _ _ Facts₀.concatenates_S1000x400_S1000x400_S1000x400_S1000x1200_d1 p q).trans ?_
  unfold outRow
  by_cases h1 : q.val < 400
  · rw [dif_pos h1, dif_pos h1]
    exact stretch1_apply x0 w1 b1 p _
  · rw [dif_neg h1, dif_neg h1]
    by_cases h2 : q.val < 800
    · rw [dif_pos h2, dif_pos h2]
      exact stretch2_apply x0 x1 w20 w21 b2 p _
    · rw [dif_neg h2, dif_neg h2]
      exact stretch3_apply x0 x1 x2 w30 w31 w32 b3 p _

/-- The same at any index of the block, its two coordinates read off. -/
theorem stored_at (x0 x1 x2 : FVec Ideal S1000x128 .f32) (w1 : FVec Ideal S128x400 .f32) (b1 : FVec Ideal S400 .f32)
    (w20 w21 : FVec Ideal S128x400 .f32) (b2 : FVec Ideal S400 .f32) (w30 w31 w32 : FVec Ideal S128x400 .f32) (b3 : FVec Ideal S400 .f32)
    (j : S1000x1200.Idx) :
    k0_pay1 (F := Ideal) (k0_pay4 x2) (k0_pay5 w32) (k0_pay6 x0 w1 b1) (k0_pay7 x0 x1 w20 w21 b2) (k0_pay8 x0 w30) (k0_pay9 x1 w31) b3 j
      = outRow (rowOf x0 ⟨(j 0).val, (j 0).isLt⟩) (rowOf x1 ⟨(j 0).val, (j 0).isLt⟩) (rowOf x2 ⟨(j 0).val, (j 0).isLt⟩)
          w1 b1 w20 w21 b2 w30 w31 w32 b3 ⟨(j 1).val, (j 1).isLt⟩ := by
  obtain ⟨p, q, rfl⟩ : ∃ (p : Fin 1000) (q : Fin 1200), j = ix2 p q := ⟨j 0, j 1, eq_ix2 j⟩
  exact stored_apply x0 x1 x2 w1 b1 w20 w21 b2 w30 w31 w32 b3 p q

end Cert.KernelIdeal.Body

end
-- ==== Proof.BlockIdx.lean ====
/-
  Where each window's block sits.

  The grid has 100 points. At point t a feature window (the three 100000 × 128 matrices) and the output window
  (100000 × 1200) sit at block row t, block column 0, with 1000-row blocks; a weight or bias window always sits at block 0
  and covers its whole array. Decided once over the 100 points.
-/
import proofs.«121442_j27462020891069_1_alg».proof.Proof.KernelIdealValueP
import proofs.«121442_j27462020891069_1_alg».proof.Proof.Spec
import Idealize.ShloMosaic.Lib.Pipeline.Value
import Idealize.ShloMosaic.Lib.ValueIdx

noncomputable section

namespace Cert.KernelIdeal.Whole

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Cheb
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 100 grid points: a feature window and the output window sit at block row t,
    block column 0; a weight or bias window always at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_4.index t (0 : Fin 1) = 0
    ∧ win0_7.index t (0 : Fin 1) = 0
    ∧ win0_11.index t (0 : Fin 1) = 0
    ∧ win0_12.index t (0 : Fin 2) = t.val
    ∧ win0_12.index t (1 : Fin 2) = 0 :=
  (by decide +kernel : ∀ t : Fin grid0.N, _)

end Cert.KernelIdeal.Whole

end
-- ==== Proof.BlockFeat0.lean ====
/-
  Rows of feature window 0's staged block.

  Row p of the block the window stages at point t is row 1000 t + p of its matrix: a block's coordinate is always
  block index × block size + the coordinate inside the block.
-/
import proofs.«121442_j27462020891069_1_alg».proof.Proof.BlockIdx
import Idealize.ShloMosaic.Lib.Pipeline.Value
import Idealize.ShloMosaic.Lib.ValueIdx

noncomputable section

namespace Cert.KernelIdeal.Whole

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Cheb
open Idealize.ShloMosaic.Pipeline (Dat)

variable (m : (ℓ : Loc nD τ sig) → Buf (Elt Ideal) ℓ) (ρ : Dev nD → PrngReg)

/-- Row p of feature window 0's block at point t is row 1000 t + p of its matrix. -/
theorem row0_eq (c : Dev nD) (t : Fin cfg0.N) (p : Fin 1000) (r : Fin 100000) (hr : r.val = t.val * 1000 + p.val) :
    rowOf (iblk m c 0 t : FVec Ideal S1000x128 .f32) p = rowOf (V m c main_arg0 : FVec Ideal S100000x128 .f32) r := by
  obtain ⟨f0a, f0b, f1a, f1b, f2a, f2b, f3a, f3b, f5a, f5b, f6a, f6b, f8a, f8b, f9a, f9b, f10a, f10b, f4a, f7a, f11a, f12a, f12b⟩ := idx_facts t
  funext k
  show (iblk m c 0 t : FVec Ideal S1000x128 .f32) (ix2 p k) = (V m c main_arg0 : FVec Ideal S100000x128 .f32) (ix2 r k)
  unfold iblk
  rw [View.read_apply]
  show (V m c main_arg0 : FVec Ideal S100000x128 .f32) (((cfg0.win 0).blk t).view.emb (ix2 p k)) = (V m c main_arg0 : FVec Ideal S100000x128 .f32) (ix2 r k)
  refine congrArg (V m c main_arg0 : FVec Ideal S100000x128 .f32) ?_
  funext a
  apply Fin.ext
  match a with
  | ⟨0, _⟩ => show win0_0.index t (0 : Fin 2) * 1000 + 1 * p.val = r.val; rw [f0a, hr]; omega
  | ⟨1, _⟩ => show win0_0.index t (1 : Fin 2) * 128 + 1 * k.val = k.val; rw [f0b]; omega

end Cert.KernelIdeal.Whole

end
-- ==== Proof.BlockFeat1.lean ====
/-
  Rows of feature window 1's staged block.

  Row p of the block the window cuts out of a matrix at point t is row 1000 t + p of the matrix: a block's coordinate is
  always block index × block size + the coordinate inside the block. Stated for any matrix, then read at the matrix the
  region finds at the window's array.
-/
import proofs.«121442_j27462020891069_1_alg».proof.Proof.BlockIdx
import Idealize.ShloMosaic.Lib.Pipeline.Value
import Idealize.ShloMosaic.Lib.ValueIdx

noncomputable section

namespace Cert.KernelIdeal.Whole

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Cheb
open Idealize.ShloMosaic.Pipeline (Dat)

variable (m : (ℓ : Loc nD τ sig) → Buf (Elt Ideal) ℓ) (ρ : Dev nD → PrngReg)

/-- Row p of the block feature window 1 cuts out of ANY 100000 × 128 matrix at point t is row 1000 t + p of the matrix. -/
theorem blkRow1 (A : FVec Ideal S100000x128 .f32) (t : Fin cfg0.N) (p : Fin 1000) (r : Fin 100000) (hr : r.val = t.val * 1000 + p.val)
    (k : Fin 128) :
    ((cfg0.win 1).blk t).view.read (Elt Ideal) A (ix2 p k) = A (ix2 r k) := by
  obtain ⟨f0a, f0b, f1a, f1b, f2a, f2b, f3a, f3b, f5a, f5b, f6a, f6b, f8a, f8b, f9a, f9b, f10a, f10b, f4a, f7a, f11a, f12a, f12b⟩ := idx_facts t
  rw [View.read_apply]
  show A (((cfg0.win 1).blk t).view.emb (ix2 p k)) = A (ix2 r k)
  refine congrArg A ?_
  funext a
  apply Fin.ext
  match a with
  | ⟨0, _⟩ => show win0_1.index t (0 : Fin 2) * 1000 + 1 * p.val = r.val; rw [f1a, hr]; omega
  | ⟨1, _⟩ => show win0_1.index t (1 : Fin 2) * 128 + 1 * k.val = k.val; rw [f1b]; omega

/-- So row p of the block the window stages at point t is row 1000 t + p of the matrix the region finds there. -/
theorem row1_eq (c : Dev nD) (t : Fin cfg0.N) (p : Fin 1000) (r : Fin 100000) (hr : r.val = t.val * 1000 + p.val) :
    rowOf (iblk m c 1 t : FVec Ideal S1000x128 .f32) p = rowOf (V m c main_v49 : FVec Ideal S100000x128 .f32) r :=
  funext fun k => blkRow1 (V m c main_v49) t p r hr k

end Cert.KernelIdeal.Whole

end
-- ==== Proof.BlockFeat2.lean ====
/-
  Rows of feature window 2's staged block.

  Row p of the block the window cuts out of a matrix at point t is row 1000 t + p of the matrix: a block's coordinate is
  always block index × block size + the coordinate inside the block. Stated for any matrix, then read at the matrix the
  region finds at the window's array.
-/
import proofs.«121442_j27462020891069_1_alg».proof.Proof.BlockIdx
import Idealize.ShloMosaic.Lib.Pipeline.Value
import Idealize.ShloMosaic.Lib.ValueIdx

noncomputable section

namespace Cert.KernelIdeal.Whole

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Cheb
open Idealize.ShloMosaic.Pipeline (Dat)

variable (m : (ℓ : Loc nD τ sig) → Buf (Elt Ideal) ℓ) (ρ : Dev nD → PrngReg)

/-- Row p of the block feature window 2 cuts out of ANY 100000 × 128 matrix at point t is row 1000 t + p of the matrix. -/
theorem blkRow2 (A : FVec Ideal S100000x128 .f32) (t : Fin cfg0.N) (p : Fin 1000) (r : Fin 100000) (hr : r.val = t.val * 1000 + p.val)
    (k : Fin 128) :
    ((cfg0.win 2).blk t).view.read (Elt Ideal) A (ix2 p k) = A (ix2 r k) := by
  obtain ⟨f0a, f0b, f1a, f1b, f2a, f2b, f3a, f3b, f5a, f5b, f6a, f6b, f8a, f8b, f9a, f9b, f10a, f10b, f4a, f7a, f11a, f12a, f12b⟩ := idx_facts t
  rw [View.read_apply]
  show A (((cfg0.win 2).blk t).view.emb (ix2 p k)) = A (ix2 r k)
  refine congrArg A ?_
  funext a
  apply Fin.ext
  match a with
  | ⟨0, _⟩ => show win0_2.index t (0 : Fin 2) * 1000 + 1 * p.val = r.val; rw [f2a, hr]; omega
  | ⟨1, _⟩ => show win0_2.index t (1 : Fin 2) * 128 + 1 * k.val = k.val; rw [f2b]; omega

/-- So row p of the block the window stages at point t is row 1000 t + p of the matrix the region finds there. -/
theorem row2_eq (c : Dev nD) (t : Fin cfg0.N) (p : Fin 1000) (r : Fin 100000) (hr : r.val = t.val * 1000 + p.val) :
    rowOf (iblk m c 2 t : FVec Ideal S1000x128 .f32) p = rowOf (V m c main_v69 : FVec Ideal S100000x128 .f32) r :=
  funext fun k => blkRow2 (V m c main_v69) t p r hr k

end Cert.KernelIdeal.Whole

end
-- ==== Proof.BlockWtA.lean ====
/-
  The staged weight blocks (first stretch and second stretch) are the whole weight matrices: their window sits at
  block (0, 0) and the block has the matrix's extents.
-/
import proofs.«121442_j27462020891069_1_alg».proof.Proof.BlockIdx
import Idealize.ShloMosaic.Lib.Pipeline.Value
import Idealize.ShloMosaic.Lib.ValueIdx

noncomputable section

namespace Cert.KernelIdeal.Whole

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Cheb
open Idealize.ShloMosaic.Pipeline (Dat)

variable (m : (ℓ : Loc nD τ sig) → Buf (Elt Ideal) ℓ) (ρ : Dev nD → PrngReg)

/-- Weight window 3's block at every point is the whole matrix. -/
theorem blk3_eq (c : Dev nD) (t : Fin cfg0.N) : (iblk m c 3 t : FVec Ideal S128x400 .f32) = (V m c main_arg3 : FVec Ideal S128x400 .f32) := by
  obtain ⟨f0a, f0b, f1a, f1b, f2a, f2b, f3a, f3b, f5a, f5b, f6a, f6b, f8a, f8b, f9a, f9b, f10a, f10b, f4a, f7a, f11a, f12a, f12b⟩ := idx_facts t
  funext y
  unfold iblk
  rw [View.read_apply]
  show (V m c main_arg3 : FVec Ideal S128x400 .f32) (((cfg0.win 3).blk t).view.emb y) = (V m c main_arg3 : FVec Ideal S128x400 .f32) y
  refine congrArg (V m c main_arg3 : FVec Ideal S128x400 .f32) ?_
  funext a
  apply Fin.ext
  match a with
  | ⟨0, _⟩ => show win0_3.index t (0 : Fin 2) * 128 + 1 * (y 0).val = (y 0).val; rw [f3a]; omega
  | ⟨1, _⟩ => show win0_3.index t (1 : Fin 2) * 400 + 1 * (y 1).val = (y 1).val; rw [f3b]; omega

/-- Weight window 5's block at every point is the whole matrix. -/
theorem blk5_eq (c : Dev nD) (t : Fin cfg0.N) : (iblk m c 5 t : FVec Ideal S128x400 .f32) = (V m c main_arg5 : FVec Ideal S128x400 .f32) := by
  obtain ⟨f0a, f0b, f1a, f1b, f2a, f2b, f3a, f3b, f5a, f5b, f6a, f6b, f8a, f8b, f9a, f9b, f10a, f10b, f4a, f7a, f11a, f12a, f12b⟩ := idx_facts t
  funext y
  unfold iblk
  rw [View.read_apply]
  show (V m c main_arg5 : FVec Ideal S128x400 .f32) (((cfg0.win 5).blk t).view.emb y) = (V m c main_arg5 : FVec Ideal S128x400 .f32) y
  refine congrArg (V m c main_arg5 : FVec Ideal S128x400 .f32) ?_
  funext a
  apply Fin.ext
  match a with
  | ⟨0, _⟩ => show win0_5.index t (0 : Fin 2) * 128 + 1 * (y 0).val = (y 0).val; rw [f5a]; omega
  | ⟨1, _⟩ => show win0_5.index t (1 : Fin 2) * 400 + 1 * (y 1).val = (y 1).val; rw [f5b]; omega

/-- Weight window 6's block at every point is the whole matrix. -/
theorem blk6_eq (c : Dev nD) (t : Fin cfg0.N) : (iblk m c 6 t : FVec Ideal S128x400 .f32) = (V m c main_arg6 : FVec Ideal S128x400 .f32) := by
  obtain ⟨f0a, f0b, f1a, f1b, f2a, f2b, f3a, f3b, f5a, f5b, f6a, f6b, f8a, f8b, f9a, f9b, f10a, f10b, f4a, f7a, f11a, f12a, f12b⟩ := idx_facts t
  funext y
  unfold iblk
  rw [View.read_apply]
  show (V m c main_arg6 : FVec Ideal S128x400 .f32) (((cfg0.win 6).blk t).view.emb y) = (V m c main_arg6 : FVec Ideal S128x400 .f32) y
  refine congrArg (V m c main_arg6 : FVec Ideal S128x400 .f32) ?_
  funext a
  apply Fin.ext
  match a with
  | ⟨0, _⟩ => show win0_6.index t (0 : Fin 2) * 128 + 1 * (y 0).val = (y 0).val; rw [f6a]; omega
  | ⟨1, _⟩ => show win0_6.index t (1 : Fin 2) * 400 + 1 * (y 1).val = (y 1).val; rw [f6b]; omega

end Cert.KernelIdeal.Whole

end
-- ==== Proof.BlockWtB.lean ====
/-
  The staged weight blocks of the third stretch are the whole weight matrices: their window sits at block (0, 0) and the
  block has the matrix's extents.
-/
import proofs.«121442_j27462020891069_1_alg».proof.Proof.BlockIdx
import Idealize.ShloMosaic.Lib.Pipeline.Value
import Idealize.ShloMosaic.Lib.ValueIdx

noncomputable section

namespace Cert.KernelIdeal.Whole

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Cheb
open Idealize.ShloMosaic.Pipeline (Dat)

variable (m : (ℓ : Loc nD τ sig) → Buf (Elt Ideal) ℓ) (ρ : Dev nD → PrngReg)

/-- Weight window 8's block at every point is the whole matrix. -/
theorem blk8_eq (c : Dev nD) (t : Fin cfg0.N) : (iblk m c 8 t : FVec Ideal S128x400 .f32) = (V m c main_arg8 : FVec Ideal S128x400 .f32) := by
  obtain ⟨f0a, f0b, f1a, f1b, f2a, f2b, f3a, f3b, f5a, f5b, f6a, f6b, f8a, f8b, f9a, f9b, f10a, f10b, f4a, f7a, f11a, f12a, f12b⟩ := idx_facts t
  funext y
  unfold iblk
  rw [View.read_apply]
  show (V m c main_arg8 : FVec Ideal S128x400 .f32) (((cfg0.win 8).blk t).view.emb y) = (V m c main_arg8 : FVec Ideal S128x400 .f32) y
  refine congrArg (V m c main_arg8 : FVec Ideal S128x400 .f32) ?_
  funext a
  apply Fin.ext
  match a with
  | ⟨0, _⟩ => show win0_8.index t (0 : Fin 2) * 128 + 1 * (y 0).val = (y 0).val; rw [f8a]; omega
  | ⟨1, _⟩ => show win0_8.index t (1 : Fin 2) * 400 + 1 * (y 1).val = (y 1).val; rw [f8b]; omega

/-- Weight window 9's block at every point is the whole matrix. -/
theorem blk9_eq (c : Dev nD) (t : Fin cfg0.N) : (iblk m c 9 t : FVec Ideal S128x400 .f32) = (V m c main_arg9 : FVec Ideal S128x400 .f32) := by
  obtain ⟨f0a, f0b, f1a, f1b, f2a, f2b, f3a, f3b, f5a, f5b, f6a, f6b, f8a, f8b, f9a, f9b, f10a, f10b, f4a, f7a, f11a, f12a, f12b⟩ := idx_facts t
  funext y
  unfold iblk
  rw [View.read_apply]
  show (V m c main_arg9 : FVec Ideal S128x400 .f32) (((cfg0.win 9).blk t).view.emb y) = (V m c main_arg9 : FVec Ideal S128x400 .f32) y
  refine congrArg (V m c main_arg9 : FVec Ideal S128x400 .f32) ?_
  funext a
  apply Fin.ext
  match a with
  | ⟨0, _⟩ => show win0_9.index t (0 : Fin 2) * 128 + 1 * (y 0).val = (y 0).val; rw [f9a]; omega
  | ⟨1, _⟩ => show win0_9.index t (1 : Fin 2) * 400 + 1 * (y 1).val = (y 1).val; rw [f9b]; omega

/-- Weight window 10's block at every point is the whole matrix. -/
theorem blk10_eq (c : Dev nD) (t : Fin cfg0.N) : (iblk m c 10 t : FVec Ideal S128x400 .f32) = (V m c main_arg10 : FVec Ideal S128x400 .f32) := by
  obtain ⟨f0a, f0b, f1a, f1b, f2a, f2b, f3a, f3b, f5a, f5b, f6a, f6b, f8a, f8b, f9a, f9b, f10a, f10b, f4a, f7a, f11a, f12a, f12b⟩ := idx_facts t
  funext y
  unfold iblk
  rw [View.read_apply]
  show (V m c main_arg10 : FVec Ideal S128x400 .f32) (((cfg0.win 10).blk t).view.emb y) = (V m c main_arg10 : FVec Ideal S128x400 .f32) y
  refine congrArg (V m c main_arg10 : FVec Ideal S128x400 .f32) ?_
  funext a
  apply Fin.ext
  match a with
  | ⟨0, _⟩ => show win0_10.index t (0 : Fin 2) * 128 + 1 * (y 0).val = (y 0).val; rw [f10a]; omega
  | ⟨1, _⟩ => show win0_10.index t (1 : Fin 2) * 400 + 1 * (y 1).val = (y 1).val; rw [f10b]; omega

end Cert.KernelIdeal.Whole

end
-- ==== Proof.BlockBias.lean ====
/-
  The staged bias blocks are the whole biases: their window sits at block 0 and the block has the bias's extent.
-/
import proofs.«121442_j27462020891069_1_alg».proof.Proof.BlockIdx
import Idealize.ShloMosaic.Lib.Pipeline.Value
import Idealize.ShloMosaic.Lib.ValueIdx

noncomputable section

namespace Cert.KernelIdeal.Whole

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Cheb
open Idealize.ShloMosaic.Pipeline (Dat)

variable (m : (ℓ : Loc nD τ sig) → Buf (Elt Ideal) ℓ) (ρ : Dev nD → PrngReg)

/-- Bias window 4's block at every point is the whole bias. -/
theorem blk4_eq (c : Dev nD) (t : Fin cfg0.N) : (iblk m c 4 t : FVec Ideal S400 .f32) = (V m c main_arg4 : FVec Ideal S400 .f32) := by
  obtain ⟨f0a, f0b, f1a, f1b, f2a, f2b, f3a, f3b, f5a, f5b, f6a, f6b, f8a, f8b, f9a, f9b, f10a, f10b, f4a, f7a, f11a, f12a, f12b⟩ := idx_facts t
  funext y
  unfold iblk
  rw [View.read_apply]
  show (V m c main_arg4 : FVec Ideal S400 .f32) (((cfg0.win 4).blk t).view.emb y) = (V m c main_arg4 : FVec Ideal S400 .f32) y
  refine congrArg (V m c main_arg4 : FVec Ideal S400 .f32) ?_
  funext a
  apply Fin.ext
  match a with
  | ⟨0, _⟩ => show win0_4.index t (0 : Fin 1) * 400 + 1 * (y 0).val = (y 0).val; rw [f4a]; omega

/-- Bias window 7's block at every point is the whole bias. -/
theorem blk7_eq (c : Dev nD) (t : Fin cfg0.N) : (iblk m c 7 t : FVec Ideal S400 .f32) = (V m c main_arg7 : FVec Ideal S400 .f32) := by
  obtain ⟨f0a, f0b, f1a, f1b, f2a, f2b, f3a, f3b, f5a, f5b, f6a, f6b, f8a, f8b, f9a, f9b, f10a, f10b, f4a, f7a, f11a, f12a, f12b⟩ := idx_facts t
  funext y
  unfold iblk
  rw [View.read_apply]
  show (V m c main_arg7 : FVec Ideal S400 .f32) (((cfg0.win 7).blk t).view.emb y) = (V m c main_arg7 : FVec Ideal S400 .f32) y
  refine congrArg (V m c main_arg7 : FVec Ideal S400 .f32) ?_
  funext a
  apply Fin.ext
  match a with
  | ⟨0, _⟩ => show win0_7.index t (0 : Fin 1) * 400 + 1 * (y 0).val = (y 0).val; rw [f7a]; omega

/-- Bias window 11's block at every point is the whole bias. -/
theorem blk11_eq (c : Dev nD) (t : Fin cfg0.N) : (iblk m c 11 t : FVec Ideal S400 .f32) = (V m c main_arg11 : FVec Ideal S400 .f32) := by
  obtain ⟨f0a, f0b, f1a, f1b, f2a, f2b, f3a, f3b, f5a, f5b, f6a, f6b, f8a, f8b, f9a, f9b, f10a, f10b, f4a, f7a, f11a, f12a, f12b⟩ := idx_facts t
  funext y
  unfold iblk
  rw [View.read_apply]
  show (V m c main_arg11 : FVec Ideal S400 .f32) (((cfg0.win 11).blk t).view.emb y) = (V m c main_arg11 : FVec Ideal S400 .f32) y
  refine congrArg (V m c main_arg11 : FVec Ideal S400 .f32) ?_
  funext a
  apply Fin.ext
  match a with
  | ⟨0, _⟩ => show win0_11.index t (0 : Fin 1) * 400 + 1 * (y 0).val = (y 0).val; rw [f11a]; omega

end Cert.KernelIdeal.Whole

end
-- ==== Proof.KernelValue.lean ====
/-
  From the blocks to the whole output matrix.

  The grid has 100 points. Point t stages rows 1000 t … 1000 t + 999 of each feature matrix, the whole of every weight
  matrix and bias, and writes back rows 1000 t … 1000 t + 999 of the output. What it writes is, entry by entry, the output
  row of the three staged feature rows (the stored block read at an entry), so every point writes its block of ONE
  whole-matrix function, `Cert.Cheb.G` of the arrays as the region finds them; the 100 blocks tile the 100000 rows
  (row r lies in the block of point r / 1000), so after the run the output matrix is that function.
-/
import proofs.«121442_j27462020891069_1_alg».proof.Proof.KernelIdealValueP
import proofs.«121442_j27462020891069_1_alg».proof.Proof.Payload
import proofs.«121442_j27462020891069_1_alg».proof.Proof.Spec
import proofs.«121442_j27462020891069_1_alg».proof.Proof.BlockIdx
import proofs.«121442_j27462020891069_1_alg».proof.Proof.BlockFeat0
import proofs.«121442_j27462020891069_1_alg».proof.Proof.BlockFeat1
import proofs.«121442_j27462020891069_1_alg».proof.Proof.BlockFeat2
import proofs.«121442_j27462020891069_1_alg».proof.Proof.BlockWtA
import proofs.«121442_j27462020891069_1_alg».proof.Proof.BlockWtB
import proofs.«121442_j27462020891069_1_alg».proof.Proof.BlockBias
import Idealize.ShloMosaic.Lib.Pipeline.Value
import Idealize.ShloMosaic.Lib.ValueIdx

noncomputable section

namespace Cert.KernelIdeal.Whole

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Cheb
open Idealize.ShloMosaic.Pipeline (Dat)

variable (m : (ℓ : Loc nD τ sig) → Buf (Elt Ideal) ℓ) (ρ : Dev nD → PrngReg)

/-- The output row is a function of its arguments. -/
theorem outRow_congr {r0 r1 r2 r0' r1' r2' : Fin 128 → EReal} {W1 W20 W21 W30 W31 W32 W1' W20' W21' W30' W31' W32' : Wt}
    {b1 b2 b3 b1' b2' b3' : Bs} {q q' : Fin 1200}
    (e0 : r0 = r0') (e1 : r1 = r1') (e2 : r2 = r2') (e3 : W1 = W1') (e4 : b1 = b1') (e5 : W20 = W20') (e6 : W21 = W21') (e7 : b2 = b2')
    (e8 : W30 = W30') (e9 : W31 = W31') (e10 : W32 = W32') (e11 : b3 = b3') (eq : q = q') :
    outRow r0 r1 r2 W1 b1 W20 W21 b2 W30 W31 W32 b3 q = outRow r0' r1' r2' W1' b1' W20' W21' b2' W30' W31' W32' b3' q' := by
  subst e0 e1 e2 e3 e4 e5 e6 e7 e8 e9 e10 e11 eq
  rfl

/-- The whole output matrix the region computes, from the arrays as it finds them. -/
abbrev result (c : Dev nD) : FVec Ideal S100000x1200 .f32 :=
  G (V m c main_arg0) (V m c main_v49) (V m c main_v69) (V m c main_arg3) (V m c main_arg4) (V m c main_arg5) (V m c main_arg6) (V m c main_arg7) (V m c main_arg8) (V m c main_arg9) (V m c main_arg10) (V m c main_arg11)

/-- WHAT POINT t WRITES BACK is block t of `result`. -/
theorem flushed_eq (c : Dev nD) (t : Fin cfg0.N) :
    (dats m 0 c).flushed 12 t = ((cfg0.win 12).blk t).view.read (Elt Ideal) (result m c) := by
  rw [flushed12]
  unfold out0_12
  rw [View.canon_unit_zero hz2]
  simp only [View.ld_unit_zero (S := S1000x128) hz2, View.ld_unit_zero (S := S128x400) hz2, View.ld_unit_zero (S := S400) hz1]
  obtain ⟨f0a, f0b, f1a, f1b, f2a, f2b, f3a, f3b, f5a, f5b, f6a, f6b, f8a, f8b, f9a, f9b, f10a, f10b, f4a, f7a, f11a, f12a, f12b⟩ := idx_facts t
  funext j
  have hj0 : (j 0).val < 1000 := (j 0).isLt
  have hj1 : (j 1).val < 1200 := (j 1).isLt
  have ht : t.val < 100 := t.isLt
  refine (Cert.KernelIdeal.Body.stored_at (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) j).trans ?_
  show _ = result m c (((cfg0.win 12).blk t).view.emb j)
  have he0 : ((((cfg0.win 12).blk t).view.emb j) 0).val = t.val * 1000 + (j 0).val := by
    show win0_12.index t (0 : Fin 2) * 1000 + 1 * (j 0).val = _
    rw [f12a]; omega
  have he1 : ((((cfg0.win 12).blk t).view.emb j) 1).val = (j 1).val := by
    show win0_12.index t (1 : Fin 2) * 1200 + 1 * (j 1).val = _
    rw [f12b]; omega
  exact outRow_congr (row0_eq m c t _ _ he0) (row1_eq m c t _ _ he0) (row2_eq m c t _ _ he0)
    (blk3_eq m c t) (blk4_eq m c t) (blk5_eq m c t) (blk6_eq m c t) (blk7_eq m c t) (blk8_eq m c t) (blk9_eq m c t) (blk10_eq m c t)
    (blk11_eq m c t) (Fin.ext he1.symm)

/-- An index of the output matrix is in point t's block iff each coordinate is in the block's range on its axis. -/
theorem mem_blk (t : Fin cfg0.N) (i : S100000x1200.Idx) :
    i ∈ ((cfg0.win 12).blk t).view.set ↔ ∀ a : Fin 2, win0_12.index t a * S1000x1200.size a ≤ (i a).val ∧ (i a).val < win0_12.index t a * S1000x1200.size a + S1000x1200.size a := by
  show i ∈ ((View.whole main_v70).slice (win0_12.rect t)).set ↔ _
  rw [View.set_slice_whole, Rect.mem_set_unit]
  exact Iff.rfl

/-- THE OUTPUT MATRIX after the run is `result`: the 100 row blocks tile it. -/
theorem final (c : Dev nD) : (dats m 0 c).arrAt 12 cfg0.N = result m c :=
  (dats m 0 c).arrAt_eq_of_cover 12 (result m c) (fun t _ => flushed_eq m c t) fun i => by
    have hi0 : (i 0).val < 100000 := (i 0).isLt
    have hi1 : (i 1).val < 1200 := (i 1).isLt
    have hN : cfg0.N = 100 := N_0
    have hlt : (i 0).val / 1000 < cfg0.N := by rw [hN]; omega
    obtain ⟨f0a, f0b, f1a, f1b, f2a, f2b, f3a, f3b, f5a, f5b, f6a, f6b, f8a, f8b, f9a, f9b, f10a, f10b, f4a, f7a, f11a, f12a, f12b⟩ := idx_facts ⟨(i 0).val / 1000, hlt⟩
    refine ⟨⟨(i 0).val / 1000, hlt⟩, flush0_12 _, ?_⟩
    rw [mem_blk]
    intro a
    match a with
    | ⟨0, _⟩ =>
      show win0_12.index ⟨(i 0).val / 1000, hlt⟩ (0 : Fin 2) * 1000 ≤ (i 0).val ∧ (i 0).val < win0_12.index ⟨(i 0).val / 1000, hlt⟩ (0 : Fin 2) * 1000 + 1000
      rw [f12a]
      show (i 0).val / 1000 * 1000 ≤ (i 0).val ∧ (i 0).val < (i 0).val / 1000 * 1000 + 1000
      omega
    | ⟨1, _⟩ =>
      show win0_12.index ⟨(i 0).val / 1000, hlt⟩ (1 : Fin 2) * 1200 ≤ (i 1).val ∧ (i 1).val < win0_12.index ⟨(i 0).val / 1000, hlt⟩ (1 : Fin 2) * 1200 + 1200
      rw [f12b]
      omega

/-- THE KERNEL'S RUN, read: every weakly fair execution terminates with the output matrix at `result` and the twelve
    argument arrays unchanged. -/
theorem run : θ_run defs (onTc (τ := τ) (main (F := Ideal))) ⟨m, fun _ => 0, ρ⟩ fun r => ∀ c : Dev nD,
      r.2.mem ((c : Thread nD τ).loc main_v70) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (run_blocks m ρ)

end Cert.KernelIdeal.Whole

end
-- ==== Proof.RefValue.lean ====
/-
  The reference's result, read at an entry.

  The reference computes the three feature matrices T0 x = x, T1 x and T2 x by its graph propagation (gathers, scatter-adds
  and a reciprocal square root of the degrees: stages %49 and %69 of its program), then three host matrix products per
  stretch, a broadcast bias, and one concatenation along the columns. Read at entry (r, q), that is `Cert.Cheb.G` of x,
  stage %49, stage %69, the weights and the biases: the graph propagation is carried as two opaque matrices and never opened.
-/
import proofs.«121442_j27462020891069_1_alg».proof.Proof.Gen.ReferenceIdeal.Read
import proofs.«121442_j27462020891069_1_alg».proof.Proof.Spec
import proofs.«121442_j27462020891069_1_alg».proof.Proof.LibDot
import proofs.«121442_j27462020891069_1_alg».proof.Proof.LibConcat3
import Idealize.ShloMosaic.Lib.Pipeline.Value
import Idealize.ShloMosaic.Lib.ValueIdx
import Idealize.ShloMosaic.PureOps.Ideal.Laws

noncomputable section

namespace Cert.ReferenceIdeal.Whole

open Cert.ReferenceIdeal Cert.ReferenceIdeal.Gen Cert.ReferenceIdeal.Read
open Idealize.ShloMosaic Idealize.ShloMosaic.ValueIdx Cert.Cheb

/-- One host product: a 100000 × 128 matrix times a 128 × 400 weight matrix, at entry (r, c), is row r against column c. -/
theorem product_apply (x : FVec Ideal S100000x128 .f32) (w : FVec Ideal S128x400 .f32) (r : Fin 100000) (c : Fin 400) :
    Host.dotGeneral dot_S100000x128_S128x400_S100000x400_1_0_0_1_n_n none x w (ix2 r c) = proj (rowOf x r) w c :=
  Cert.Lib.Dot.dotGeneral_plain_apply (M := 100000) (K := 128) (N := 400) none _ x w r c

/-- A bias of length 400 laid out as one row and repeated over the 100000 rows reads, at (r, c), its entry c. -/
theorem bias_apply (b : FVec Ideal S400 .f32) (r : Fin 100000) (c : Fin 400) :
    broadcastInDim S100000x400 ![0, 1] Facts₀.bcast_S1x400_S100000x400_0_1 (broadcastInDim S1x400 ![1] Facts₀.bcast_S400_S1x400_1 b) (ix2 r c)
      = b (ix1 c) :=
  (broadcastInDim_apply _ Facts₀.bcast_S1x400_S100000x400_0_1 _ (ix2 r c) (ix2 (0 : Fin 1) c) (fun a => match a with
      | ⟨0, _⟩ => rfl
      | ⟨1, _⟩ => rfl)).trans
    (broadcastInDim_apply _ Facts₀.bcast_S400_S1x400_1 b (ix2 (0 : Fin 1) c) (ix1 c) (fun a => match a with
      | ⟨0, _⟩ => rfl))

variable (x0 : FVec Ideal S100000x128 .f32) (x1 : (⟨S2x1600000, .i32⟩ : BufTy).Contents (Elt Ideal)) (x2 : FVec Ideal S1600000 .f32)

/-- The first stretch (stage %73) at (r, c). -/
theorem stretch1_apply (w : FVec Ideal S128x400 .f32) (b : FVec Ideal S400 .f32) (r : Fin 100000) (c : Fin 400) :
    val_main_v73 (F := Ideal) x0 w b (ix2 r c) = scale1 (rowOf x0 r) w b c :=
  congrArg₂ (· + ·) (product_apply x0 w r c) (bias_apply b r c)

/-- The second stretch (stage %79) at (r, c). -/
theorem stretch2_apply (w0 w1 : FVec Ideal S128x400 .f32) (b : FVec Ideal S400 .f32) (r : Fin 100000) (c : Fin 400) :
    val_main_v79 (F := Ideal) x0 x1 x2 w0 w1 b (ix2 r c)
      = scale2 (rowOf x0 r) (rowOf (val_main_v49 (F := Ideal) x0 x1 x2) r) w0 w1 b c :=
  congrArg₂ (· + ·) (congrArg₂ (· + ·) (product_apply x0 w0 r c) (product_apply (val_main_v49 (F := Ideal) x0 x1 x2) w1 r c))
    (bias_apply b r c)

/-- The third stretch (stage %87) at (r, c). -/
theorem stretch3_apply (w0 w1 w2 : FVec Ideal S128x400 .f32) (b : FVec Ideal S400 .f32) (r : Fin 100000) (c : Fin 400) :
    val_main_v87 (F := Ideal) x0 x1 x2 w0 w1 w2 b (ix2 r c)
      = scale3 (rowOf x0 r) (rowOf (val_main_v49 (F := Ideal) x0 x1 x2) r) (rowOf (val_main_v69 (F := Ideal) x0 x1 x2) r) w0 w1 w2 b c :=
  congrArg₂ (· + ·) (congrArg₂ (· + ·) (congrArg₂ (· + ·) (product_apply x0 w0 r c)
      (product_apply (val_main_v49 (F := Ideal) x0 x1 x2) w1 r c)) (product_apply (val_main_v69 (F := Ideal) x0 x1 x2) w2 r c))
    (bias_apply b r c)

/-- THE REFERENCE'S RESULT is `G` of x, its two propagated matrices, the weights and the biases. -/
theorem result_eq (w1 : FVec Ideal S128x400 .f32) (b1 : FVec Ideal S400 .f32) (w20 w21 : FVec Ideal S128x400 .f32) (b2 : FVec Ideal S400 .f32)
    (w30 w31 w32 : FVec Ideal S128x400 .f32) (b3 : FVec Ideal S400 .f32) :
    val_main_v88 (F := Ideal) x0 x1 x2 w1 b1 w20 w21 b2 w30 w31 w32 b3
      = G x0 (val_main_v49 (F := Ideal) x0 x1 x2) (val_main_v69 (F := Ideal) x0 x1 x2) w1 b1 w20 w21 b2 w30 w31 w32 b3 := by
  funext i
  obtain ⟨r, q, rfl⟩ : ∃ (r : Fin 100000) (q : Fin 1200), i = ix2 r q := ⟨i 0, i 1, eq_ix2 i⟩
  rw [G_ix2]
  unfold val_main_v88
  refine (Cert.Lib.Concat3.cols_apply (n := 100000) 400 800 1200 rfl rfl _ _ _ Facts₀.concatenates_S100000x400_S100000x400_S100000x400_S100000x1200_d1 r q).trans ?_
  unfold outRow
  by_cases h1 : q.val < 400
  · rw [dif_pos h1, dif_pos h1]
    exact stretch1_apply x0 w1 b1 r _
  · rw [dif_neg h1, dif_neg h1]
    by_cases h2 : q.val < 800
    · rw [dif_pos h2, dif_pos h2]
      exact stretch2_apply x0 x1 x2 w20 w21 b2 r _
    · rw [dif_neg h2, dif_neg h2]
      exact stretch3_apply x0 x1 x2 w30 w31 w32 b3 r _

end Cert.ReferenceIdeal.Whole

end
-- ==== Proof.HostSide.lean ====
/-
  The graph side of the computation, as functions of the node features, the edge list and the edge weights.

  From the 2 × 1600000 edge list (sources in row 0, destinations in row 1) and the edge weights:
    · the weights with self loops removed (a loop's weight is set to 0);
    · the weighted degree of every node, a scatter-add of the loop-free weights at the sources;
    · deg^(-1/2) where the degree is positive and 0 elsewhere (the inner select keeps the reciprocal square root away
      from a zero degree by feeding it 1 there);
    · the off-diagonal weights of the scaled Laplacian, - d_src^(-1/2) · w · d_dst^(-1/2) per edge (an index below 0 is
      first moved up by the number of nodes, as jnp indexing does);
    · one propagation step, out[dst] += lhat[e] · h[src], a gather of rows, a product with the edge weight repeated along
      the row, and a scatter-add of rows;
    · T1 x = propagate x and T2 x = 2 · propagate (T1 x) − x.
  Every operation is the host operation of the printed programs, spelt as they print it, so that both programs' host
  sides are these functions of their three arguments by unfolding alone.
-/
import proofs.«121442_j27462020891069_1_alg».proof.Proof.Gen.KernelIdeal
import Idealize.ShloMosaic.PureOps.Ideal

noncomputable section

namespace Cert.KernelIdeal.HostSide

open Cert.KernelIdeal Idealize.ShloMosaic

/-- The edge list. -/
abbrev Edges : Type := IVec S2x1600000 32
/-- One node index per edge. -/
abbrev EdgeIdx : Type := IVec S1600000 32
/-- One float per edge. -/
abbrev EdgeVal : Type := FVec Ideal S1600000 .f32
/-- One float per node. -/
abbrev NodeVal : Type := FVec Ideal S100000 .f32
/-- A feature matrix. -/
abbrev Feat : Type := FVec Ideal S100000x128 .f32

/-- The sources: row 0 of the edge list. -/
def srcOf (e : Edges) : EdgeIdx :=
  shapeCast S1600000 (extractStridedSlice S1x1600000 ![0, 0] e Facts₀.slices_S2x1600000_S1x1600000_0_0) Facts₀.shapeCasts_S1x1600000_S1600000
/-- The destinations: row 1 of the edge list. -/
def dstOf (e : Edges) : EdgeIdx :=
  shapeCast S1600000 (extractStridedSlice S1x1600000 ![1, 0] e Facts₀.slices_S2x1600000_S1x1600000_1_0) Facts₀.shapeCasts_S1x1600000_S1600000

/-- An index below 0 counts from the end: it is moved up by the number of nodes. -/
def wrapIdx (idx : EdgeIdx) : EdgeIdx :=
  select (cmpi .slt idx (broadcastInDim S1600000 ![] Facts₀.bcast_S_S1600000 (constantI S_ 32 0#32)))
    (addi idx (broadcastInDim S1600000 ![] Facts₀.bcast_S_S1600000 (constantI S_ 32 100000#32))) idx

/-- A vector of node indices as the column of start indices a gather or a scatter takes. -/
def asCol (idx : EdgeIdx) : IVec S1600000x1 32 :=
  broadcastInDim S1600000x1 ![0] Facts₀.bcast_S1600000_S1600000x1_0 idx

/-- The edge weights with self loops removed. -/
def loopless (e : Edges) (w : EdgeVal) : EdgeVal :=
  select (cmpi .eq (srcOf e) (dstOf e)) (broadcastInDim S1600000 ![] Facts₀.bcast_S_S1600000 (id (constant (F := Ideal) S_ .f32 0x00000000#32))) w

/-- The weighted degree of every node. -/
def degree (e : Edges) (w : EdgeVal) : NodeVal :=
  Host.scatterAdd scatter_S100000_S1600000x1_S1600000_n_0_0_1
    (broadcastInDim S100000 ![] Facts₀.bcast_S_S100000 (constant (F := Ideal) S_ .f32 0x00000000#32)) (asCol (srcOf e)) (loopless e w)

/-- deg^(-1/2) where the degree is positive, 0 elsewhere. -/
def invSqrtDeg (e : Edges) (w : EdgeVal) : NodeVal :=
  select (cmpf .ogt (degree e w) (broadcastInDim S100000 ![] Facts₀.bcast_S_S100000 (constant (F := Ideal) S_ .f32 0x00000000#32)))
    (Host.rsqrt (select (cmpf .ogt (degree e w) (broadcastInDim S100000 ![] Facts₀.bcast_S_S100000 (constant (F := Ideal) S_ .f32 0x00000000#32)))
      (degree e w) (broadcastInDim S100000 ![] Facts₀.bcast_S_S100000 (id (constant (F := Ideal) S_ .f32 0x3F800000#32)))))
    (broadcastInDim S100000 ![] Facts₀.bcast_S_S100000 (id (constant (F := Ideal) S_ .f32 0x00000000#32)))

/-- The scaled Laplacian's weight on every edge. -/
def lapWeights (e : Edges) (w : EdgeVal) : EdgeVal :=
  mulf (mulf (Host.negf (Host.gather gather_S100000_S1600000x1_S1600000_n_0_n_n_0_1_1 (invSqrtDeg e w) (asCol (wrapIdx (srcOf e))))) (loopless e w))
    (Host.gather gather_S100000_S1600000x1_S1600000_n_0_n_n_0_1_1 (invSqrtDeg e w) (asCol (wrapIdx (dstOf e))))

/-- One propagation step over the graph. -/
def propagate (e : Edges) (w : EdgeVal) (h : Feat) : Feat :=
  Host.scatterAdd scatter_S100000x128_S1600000x1_S1600000x128_1_0_0_1
    (broadcastInDim S100000x128 ![] Facts₀.bcast_S_S100000x128 (constant (F := Ideal) S_ .f32 0x00000000#32)) (asCol (dstOf e))
    (mulf (broadcastInDim S1600000x128 ![0, 1] Facts₀.bcast_S1600000x1_S1600000x128_0_1
        (broadcastInDim S1600000x1 ![0] Facts₀.bcast_S1600000_S1600000x1_0 (lapWeights e w)))
      (Host.gather gather_S100000x128_S1600000x1_S1600000x128_1_0_n_n_0_1_1128 h (asCol (wrapIdx (srcOf e)))))

/-- T1 x. -/
def cheb1 (x : Feat) (e : Edges) (w : EdgeVal) : Feat := propagate e w x

/-- T2 x = 2 · propagate (T1 x) − x. -/
def cheb2 (x : Feat) (e : Edges) (w : EdgeVal) : Feat :=
  subf (mulf (broadcastInDim S100000x128 ![] Facts₀.bcast_S_S100000x128 (constant (F := Ideal) S_ .f32 0x40000000#32)) (propagate e w (cheb1 x e w))) x

end Cert.KernelIdeal.HostSide

end
-- ==== Proof.PreludeA.lean ====
/-
  The kernel's host side, read back one stage at a time.

  The region's array contents are the fold of the program's host operations over the launch memory. Read back at one
  buffer, the fold gives that stage's operation applied to the fold read back at the operands' buffers: each lemma below
  states one stage in terms of the stages it reads, so that no comparison ever has to open an earlier stage. Chained, they
  say that the region finds `HostSide.cheb1` at %49 and `HostSide.cheb2` at %69.
  Here: the loop-free weights (%5) and the degrees (%8).
-/
import proofs.«121442_j27462020891069_1_alg».proof.Proof.KernelIdealFrameP
import proofs.«121442_j27462020891069_1_alg».proof.Proof.HostSide
import Idealize.ShloMosaic.Lib.StableHlo.Run

noncomputable section

namespace Cert.KernelIdeal.Prelude

open Cert.KernelIdeal Cert.KernelIdeal.Gen Cert.KernelIdeal.GenP Cert.KernelIdeal.HostSide
open Idealize.ShloMosaic Idealize.ShloMosaic.TcCoe Idealize.SL.Sem Idealize.ShloMosaic.StableHlo

variable (m : (ℓ : Loc nD τ sig) → Buf (Elt Ideal) ℓ)

set_option maxRecDepth 65536 in
set_option maxHeartbeats 40000000 in
/-- The loop-free edge weights, at %5. -/
theorem w_eq (c : Dev nD) :
    (V m c main_v5 : FVec Ideal S1600000 .f32) = loopless (m ((c : Thread nD τ).loc main_arg1)) (m ((c : Thread nD τ).loc main_arg2)) := by
  unfold loopless srcOf dstOf
  simp only [V, hostOps0, hostOps0_1, hostOps0_2, hostOps0_3, hostOps0_4, hostOps0_5, hostOps0_6, List.flatten_cons, List.flatten_nil,
    List.append_nil, List.cons_append, List.nil_append]
  after_results_simp
  all_goals rfl

set_option maxRecDepth 65536 in
set_option maxHeartbeats 40000000 in
/-- The degrees, at %8. -/
theorem deg_eq (c : Dev nD) :
    (V m c main_v8 : FVec Ideal S100000 .f32) = degree (m ((c : Thread nD τ).loc main_arg1)) (m ((c : Thread nD τ).loc main_arg2)) := by
  unfold degree loopless asCol srcOf dstOf
  simp only [V, hostOps0, hostOps0_1, hostOps0_2, hostOps0_3, hostOps0_4, hostOps0_5, hostOps0_6, List.flatten_cons, List.flatten_nil,
    List.append_nil, List.cons_append, List.nil_append]
  after_results_simp
  all_goals rfl

end Cert.KernelIdeal.Prelude

end
-- ==== Proof.PreludeCasts.lean ====
/-
  Values of the outlined `where` functions need no transport.

  The program's three `jnp.where` calls are printed as operations on typed references: a value is carried into and out of
  such an operation along the equation "this buffer's type is the value's type". For each buffer involved that equation
  holds by computation, so the transport is the identity: one lemma per buffer and direction. Each is proved through
  heterogeneous equality (a transported value is heterogeneously equal to itself, and the two types are the same type), so
  that rewriting with it never has to compute with the transported value.
-/
import proofs.«121442_j27462020891069_1_alg».proof.Proof.Gen.KernelIdeal
import Idealize.ShloMosaic.Lib.StableHlo
import Idealize.ShloMosaic.PureOps.Ideal

noncomputable section

namespace Cert.KernelIdeal.Prelude

open Cert.KernelIdeal Idealize.ShloMosaic Idealize.ShloMosaic.StableHlo

theorem ofBuf_main_cst (p1 : main_cst.ty = (⟨S_, .f32⟩ : BufTy)) (p2 : main_cst.space ≠ .host) (p3 : main_cst.isScoped = false)
    (v : main_cst.ty.Contents (Elt Ideal)) : (TRef.of (T := ⟨S_, .f32⟩) main_cst p1 p2 p3).ofBuf v = v :=
  eq_of_heq (cast_heq _ v)
theorem ofBuf_main_call0_v0 (p1 : main_call0_v0.ty = (⟨S_, .f32⟩ : BufTy)) (p2 : main_call0_v0.space ≠ .host) (p3 : main_call0_v0.isScoped = false)
    (v : main_call0_v0.ty.Contents (Elt Ideal)) : (TRef.of (T := ⟨S_, .f32⟩) main_call0_v0 p1 p2 p3).ofBuf v = v :=
  eq_of_heq (cast_heq _ v)
theorem ofBuf_main_v4 (p1 : main_v4.ty = (⟨S1600000, .i1⟩ : BufTy)) (p2 : main_v4.space ≠ .host) (p3 : main_v4.isScoped = false)
    (v : main_v4.ty.Contents (Elt Ideal)) : (TRef.of (T := ⟨S1600000, .i1⟩) main_v4 p1 p2 p3).ofBuf v = v :=
  eq_of_heq (cast_heq _ v)
theorem ofBuf_main_call0_v1 (p1 : main_call0_v1.ty = (⟨S1600000, .f32⟩ : BufTy)) (p2 : main_call0_v1.space ≠ .host) (p3 : main_call0_v1.isScoped = false)
    (v : main_call0_v1.ty.Contents (Elt Ideal)) : (TRef.of (T := ⟨S1600000, .f32⟩) main_call0_v1 p1 p2 p3).ofBuf v = v :=
  eq_of_heq (cast_heq _ v)
theorem ofBuf_main_arg2 (p1 : main_arg2.ty = (⟨S1600000, .f32⟩ : BufTy)) (p2 : main_arg2.space ≠ .host) (p3 : main_arg2.isScoped = false)
    (v : main_arg2.ty.Contents (Elt Ideal)) : (TRef.of (T := ⟨S1600000, .f32⟩) main_arg2 p1 p2 p3).ofBuf v = v :=
  eq_of_heq (cast_heq _ v)
theorem ofBuf_main_cst_3 (p1 : main_cst_3.ty = (⟨S_, .f32⟩ : BufTy)) (p2 : main_cst_3.space ≠ .host) (p3 : main_cst_3.isScoped = false)
    (v : main_cst_3.ty.Contents (Elt Ideal)) : (TRef.of (T := ⟨S_, .f32⟩) main_cst_3 p1 p2 p3).ofBuf v = v :=
  eq_of_heq (cast_heq _ v)
theorem ofBuf_main_call1_v0 (p1 : main_call1_v0.ty = (⟨S_, .f32⟩ : BufTy)) (p2 : main_call1_v0.space ≠ .host) (p3 : main_call1_v0.isScoped = false)
    (v : main_call1_v0.ty.Contents (Elt Ideal)) : (TRef.of (T := ⟨S_, .f32⟩) main_call1_v0 p1 p2 p3).ofBuf v = v :=
  eq_of_heq (cast_heq _ v)
theorem ofBuf_main_v12 (p1 : main_v12.ty = (⟨S100000, .i1⟩ : BufTy)) (p2 : main_v12.space ≠ .host) (p3 : main_v12.isScoped = false)
    (v : main_v12.ty.Contents (Elt Ideal)) : (TRef.of (T := ⟨S100000, .i1⟩) main_v12 p1 p2 p3).ofBuf v = v :=
  eq_of_heq (cast_heq _ v)
theorem ofBuf_main_v8 (p1 : main_v8.ty = (⟨S100000, .f32⟩ : BufTy)) (p2 : main_v8.space ≠ .host) (p3 : main_v8.isScoped = false)
    (v : main_v8.ty.Contents (Elt Ideal)) : (TRef.of (T := ⟨S100000, .f32⟩) main_v8 p1 p2 p3).ofBuf v = v :=
  eq_of_heq (cast_heq _ v)
theorem ofBuf_main_call1_v1 (p1 : main_call1_v1.ty = (⟨S100000, .f32⟩ : BufTy)) (p2 : main_call1_v1.space ≠ .host) (p3 : main_call1_v1.isScoped = false)
    (v : main_call1_v1.ty.Contents (Elt Ideal)) : (TRef.of (T := ⟨S100000, .f32⟩) main_call1_v1 p1 p2 p3).ofBuf v = v :=
  eq_of_heq (cast_heq _ v)
theorem ofBuf_main_cst_4 (p1 : main_cst_4.ty = (⟨S_, .f32⟩ : BufTy)) (p2 : main_cst_4.space ≠ .host) (p3 : main_cst_4.isScoped = false)
    (v : main_cst_4.ty.Contents (Elt Ideal)) : (TRef.of (T := ⟨S_, .f32⟩) main_cst_4 p1 p2 p3).ofBuf v = v :=
  eq_of_heq (cast_heq _ v)
theorem ofBuf_main_call2_v0 (p1 : main_call2_v0.ty = (⟨S_, .f32⟩ : BufTy)) (p2 : main_call2_v0.space ≠ .host) (p3 : main_call2_v0.isScoped = false)
    (v : main_call2_v0.ty.Contents (Elt Ideal)) : (TRef.of (T := ⟨S_, .f32⟩) main_call2_v0 p1 p2 p3).ofBuf v = v :=
  eq_of_heq (cast_heq _ v)
theorem ofBuf_main_v10 (p1 : main_v10.ty = (⟨S100000, .i1⟩ : BufTy)) (p2 : main_v10.space ≠ .host) (p3 : main_v10.isScoped = false)
    (v : main_v10.ty.Contents (Elt Ideal)) : (TRef.of (T := ⟨S100000, .i1⟩) main_v10 p1 p2 p3).ofBuf v = v :=
  eq_of_heq (cast_heq _ v)
theorem ofBuf_main_v14 (p1 : main_v14.ty = (⟨S100000, .f32⟩ : BufTy)) (p2 : main_v14.space ≠ .host) (p3 : main_v14.isScoped = false)
    (v : main_v14.ty.Contents (Elt Ideal)) : (TRef.of (T := ⟨S100000, .f32⟩) main_v14 p1 p2 p3).ofBuf v = v :=
  eq_of_heq (cast_heq _ v)
theorem ofBuf_main_call2_v1 (p1 : main_call2_v1.ty = (⟨S100000, .f32⟩ : BufTy)) (p2 : main_call2_v1.space ≠ .host) (p3 : main_call2_v1.isScoped = false)
    (v : main_call2_v1.ty.Contents (Elt Ideal)) : (TRef.of (T := ⟨S100000, .f32⟩) main_call2_v1 p1 p2 p3).ofBuf v = v :=
  eq_of_heq (cast_heq _ v)
theorem toBuf_main_call0_v0 (p1 : main_call0_v0.ty = (⟨S_, .f32⟩ : BufTy)) (p2 : main_call0_v0.space ≠ .host) (p3 : main_call0_v0.isScoped = false)
    (v : (⟨S_, .f32⟩ : BufTy).Contents (Elt Ideal)) : (TRef.of (T := ⟨S_, .f32⟩) main_call0_v0 p1 p2 p3).toBuf v = v :=
  eq_of_heq (cast_heq _ v)
theorem toBuf_main_call0_v1 (p1 : main_call0_v1.ty = (⟨S1600000, .f32⟩ : BufTy)) (p2 : main_call0_v1.space ≠ .host) (p3 : main_call0_v1.isScoped = false)
    (v : (⟨S1600000, .f32⟩ : BufTy).Contents (Elt Ideal)) : (TRef.of (T := ⟨S1600000, .f32⟩) main_call0_v1 p1 p2 p3).toBuf v = v :=
  eq_of_heq (cast_heq _ v)
theorem toBuf_main_v5 (p1 : main_v5.ty = (⟨S1600000, .f32⟩ : BufTy)) (p2 : main_v5.space ≠ .host) (p3 : main_v5.isScoped = false)
    (v : (⟨S1600000, .f32⟩ : BufTy).Contents (Elt Ideal)) : (TRef.of (T := ⟨S1600000, .f32⟩) main_v5 p1 p2 p3).toBuf v = v :=
  eq_of_heq (cast_heq _ v)
theorem toBuf_main_call1_v0 (p1 : main_call1_v0.ty = (⟨S_, .f32⟩ : BufTy)) (p2 : main_call1_v0.space ≠ .host) (p3 : main_call1_v0.isScoped = false)
    (v : (⟨S_, .f32⟩ : BufTy).Contents (Elt Ideal)) : (TRef.of (T := ⟨S_, .f32⟩) main_call1_v0 p1 p2 p3).toBuf v = v :=
  eq_of_heq (cast_heq _ v)
theorem toBuf_main_call1_v1 (p1 : main_call1_v1.ty = (⟨S100000, .f32⟩ : BufTy)) (p2 : main_call1_v1.space ≠ .host) (p3 : main_call1_v1.isScoped = false)
    (v : (⟨S100000, .f32⟩ : BufTy).Contents (Elt Ideal)) : (TRef.of (T := ⟨S100000, .f32⟩) main_call1_v1 p1 p2 p3).toBuf v = v :=
  eq_of_heq (cast_heq _ v)
theorem toBuf_main_v13 (p1 : main_v13.ty = (⟨S100000, .f32⟩ : BufTy)) (p2 : main_v13.space ≠ .host) (p3 : main_v13.isScoped = false)
    (v : (⟨S100000, .f32⟩ : BufTy).Contents (Elt Ideal)) : (TRef.of (T := ⟨S100000, .f32⟩) main_v13 p1 p2 p3).toBuf v = v :=
  eq_of_heq (cast_heq _ v)
theorem toBuf_main_call2_v0 (p1 : main_call2_v0.ty = (⟨S_, .f32⟩ : BufTy)) (p2 : main_call2_v0.space ≠ .host) (p3 : main_call2_v0.isScoped = false)
    (v : (⟨S_, .f32⟩ : BufTy).Contents (Elt Ideal)) : (TRef.of (T := ⟨S_, .f32⟩) main_call2_v0 p1 p2 p3).toBuf v = v :=
  eq_of_heq (cast_heq _ v)
theorem toBuf_main_call2_v1 (p1 : main_call2_v1.ty = (⟨S100000, .f32⟩ : BufTy)) (p2 : main_call2_v1.space ≠ .host) (p3 : main_call2_v1.isScoped = false)
    (v : (⟨S100000, .f32⟩ : BufTy).Contents (Elt Ideal)) : (TRef.of (T := ⟨S100000, .f32⟩) main_call2_v1 p1 p2 p3).toBuf v = v :=
  eq_of_heq (cast_heq _ v)
theorem toBuf_main_v15 (p1 : main_v15.ty = (⟨S100000, .f32⟩ : BufTy)) (p2 : main_v15.space ≠ .host) (p3 : main_v15.isScoped = false)
    (v : (⟨S100000, .f32⟩ : BufTy).Contents (Elt Ideal)) : (TRef.of (T := ⟨S100000, .f32⟩) main_v15 p1 p2 p3).toBuf v = v :=
  eq_of_heq (cast_heq _ v)

end Cert.KernelIdeal.Prelude

end
-- ==== Proof.PreludeB.lean ====
/-
  The kernel's host side, read back one stage at a time.

  The region's array contents are the fold of the program's host operations over the launch memory. Read back at one
  buffer, the fold gives that stage's operation applied to the fold read back at the operands' buffers: each lemma below
  states one stage in terms of the stages it reads, so that no comparison ever has to open an earlier stage. Chained, they
  say that the region finds `HostSide.cheb1` at %49 and `HostSide.cheb2` at %69.
  Here: the guarded degree (%13) and its reciprocal square root where positive (%15). These two stages are the
  outlined `where` of the source, whose values are carried along "this buffer's type is the value's type"; with those
  transports removed the two sides of each equation are the same term.
-/
import proofs.«121442_j27462020891069_1_alg».proof.Proof.KernelIdealFrameP
import proofs.«121442_j27462020891069_1_alg».proof.Proof.HostSide
import proofs.«121442_j27462020891069_1_alg».proof.Proof.PreludeCasts
import Idealize.ShloMosaic.Lib.StableHlo.Run

noncomputable section

namespace Cert.KernelIdeal.Prelude

open Cert.KernelIdeal Cert.KernelIdeal.Gen Cert.KernelIdeal.GenP Cert.KernelIdeal.HostSide
open Idealize.ShloMosaic Idealize.ShloMosaic.TcCoe Idealize.SL.Sem Idealize.ShloMosaic.StableHlo

variable (m : (ℓ : Loc nD τ sig) → Buf (Elt Ideal) ℓ)

set_option maxRecDepth 16384 in
set_option maxHeartbeats 8000000 in
/-- The degree where positive, 1 elsewhere, at %13. -/
theorem guard_eq (c : Dev nD) :
    @Eq (FVec Ideal S100000 .f32) (V m c main_v13) (select (cmpf .ogt (V m c main_v8 : FVec Ideal S100000 .f32) (broadcastInDim S100000 ![] Facts₀.bcast_S_S100000 (constant (F := Ideal) S_ .f32 0x00000000#32))) (V m c main_v8 : FVec Ideal S100000 .f32)
        (broadcastInDim S100000 ![] Facts₀.bcast_S_S100000 (id (constant (F := Ideal) S_ .f32 0x3F800000#32)))) := by
  simp only [V, hostOps0, hostOps0_1, hostOps0_2, hostOps0_3, hostOps0_4, hostOps0_5, hostOps0_6, List.flatten_cons, List.flatten_nil,
    List.append_nil, List.cons_append, List.nil_append]
  after_results_simp
  simp only [ofBuf_main_cst, ofBuf_main_call0_v0, ofBuf_main_v4, ofBuf_main_call0_v1, ofBuf_main_arg2, ofBuf_main_cst_3, ofBuf_main_call1_v0, ofBuf_main_v12, ofBuf_main_v8, ofBuf_main_call1_v1, ofBuf_main_cst_4, ofBuf_main_call2_v0, ofBuf_main_v10, ofBuf_main_v14, ofBuf_main_call2_v1, toBuf_main_call0_v0, toBuf_main_call0_v1, toBuf_main_v5, toBuf_main_call1_v0, toBuf_main_call1_v1, toBuf_main_v13, toBuf_main_call2_v0, toBuf_main_call2_v1, toBuf_main_v15]

set_option maxRecDepth 16384 in
set_option maxHeartbeats 8000000 in
/-- deg^(-1/2) where the degree is positive, 0 elsewhere, at %15. -/
theorem dinv_eq (c : Dev nD) :
    @Eq (FVec Ideal S100000 .f32) (V m c main_v15) (select (cmpf .ogt (V m c main_v8 : FVec Ideal S100000 .f32) (broadcastInDim S100000 ![] Facts₀.bcast_S_S100000 (constant (F := Ideal) S_ .f32 0x00000000#32))) (Host.rsqrt (V m c main_v13 : FVec Ideal S100000 .f32))
        (broadcastInDim S100000 ![] Facts₀.bcast_S_S100000 (id (constant (F := Ideal) S_ .f32 0x00000000#32)))) := by
  simp only [V, hostOps0, hostOps0_1, hostOps0_2, hostOps0_3, hostOps0_4, hostOps0_5, hostOps0_6, List.flatten_cons, List.flatten_nil,
    List.append_nil, List.cons_append, List.nil_append]
  after_results_simp
  simp only [ofBuf_main_cst, ofBuf_main_call0_v0, ofBuf_main_v4, ofBuf_main_call0_v1, ofBuf_main_arg2, ofBuf_main_cst_3, ofBuf_main_call1_v0, ofBuf_main_v12, ofBuf_main_v8, ofBuf_main_call1_v1, ofBuf_main_cst_4, ofBuf_main_call2_v0, ofBuf_main_v10, ofBuf_main_v14, ofBuf_main_call2_v1, toBuf_main_call0_v0, toBuf_main_call0_v1, toBuf_main_v5, toBuf_main_call1_v0, toBuf_main_call1_v1, toBuf_main_v13, toBuf_main_call2_v0, toBuf_main_call2_v1, toBuf_main_v15]

end Cert.KernelIdeal.Prelude

end
-- ==== Proof.PreludeC.lean ====
/-
  The kernel's host side, read back one stage at a time.

  The region's array contents are the fold of the program's host operations over the launch memory. Read back at one
  buffer, the fold gives that stage's operation applied to the fold read back at the operands' buffers: each lemma below
  states one stage in terms of the stages it reads, so that no comparison ever has to open an earlier stage. Chained, they
  say that the region finds `HostSide.cheb1` at %49 and `HostSide.cheb2` at %69.
  Here: the Laplacian weight of every edge (%32).
-/
import proofs.«121442_j27462020891069_1_alg».proof.Proof.KernelIdealFrameP
import proofs.«121442_j27462020891069_1_alg».proof.Proof.HostSide
import Idealize.ShloMosaic.Lib.StableHlo.Run

noncomputable section

namespace Cert.KernelIdeal.Prelude

open Cert.KernelIdeal Cert.KernelIdeal.Gen Cert.KernelIdeal.GenP Cert.KernelIdeal.HostSide
open Idealize.ShloMosaic Idealize.ShloMosaic.TcCoe Idealize.SL.Sem Idealize.ShloMosaic.StableHlo

variable (m : (ℓ : Loc nD τ sig) → Buf (Elt Ideal) ℓ)

set_option maxRecDepth 65536 in
set_option maxHeartbeats 40000000 in
/-- The scaled Laplacian's edge weights, at %32. -/
theorem lap_eq (c : Dev nD) :
    @Eq (FVec Ideal S1600000 .f32) (V m c main_v32) (mulf (mulf (Host.negf (Host.gather gather_S100000_S1600000x1_S1600000_n_0_n_n_0_1_1 (V m c main_v15 : FVec Ideal S100000 .f32) (asCol (wrapIdx (srcOf (m ((c : Thread nD τ).loc main_arg1)))))))
          (V m c main_v5 : FVec Ideal S1600000 .f32))
        (Host.gather gather_S100000_S1600000x1_S1600000_n_0_n_n_0_1_1 (V m c main_v15 : FVec Ideal S100000 .f32) (asCol (wrapIdx (dstOf (m ((c : Thread nD τ).loc main_arg1))))))) := by
  unfold asCol wrapIdx srcOf dstOf
  simp only [V, hostOps0, hostOps0_1, hostOps0_2, hostOps0_3, hostOps0_4, hostOps0_5, hostOps0_6, List.flatten_cons, List.flatten_nil,
    List.append_nil, List.cons_append, List.nil_append]
  after_results_simp
  all_goals rfl

end Cert.KernelIdeal.Prelude

end
-- ==== Proof.Prelude1.lean ====
/-
  The kernel's host side, read back one stage at a time.

  The region's array contents are the fold of the program's host operations over the launch memory. Read back at one
  buffer, the fold gives that stage's operation applied to the fold read back at the operands' buffers: each lemma below
  states one stage in terms of the stages it reads, so that no comparison ever has to open an earlier stage. Chained, they
  say that the region finds `HostSide.cheb1` at %49 and `HostSide.cheb2` at %69.
  Here: the first propagation (%49), and the chain closed: the region finds T1 x at %49.
-/
import proofs.«121442_j27462020891069_1_alg».proof.Proof.KernelIdealFrameP
import proofs.«121442_j27462020891069_1_alg».proof.Proof.HostSide
import proofs.«121442_j27462020891069_1_alg».proof.Proof.PreludeA
import proofs.«121442_j27462020891069_1_alg».proof.Proof.PreludeB
import proofs.«121442_j27462020891069_1_alg».proof.Proof.PreludeC
import Idealize.ShloMosaic.Lib.StableHlo.Run

noncomputable section

namespace Cert.KernelIdeal.Prelude

open Cert.KernelIdeal Cert.KernelIdeal.Gen Cert.KernelIdeal.GenP Cert.KernelIdeal.HostSide
open Idealize.ShloMosaic Idealize.ShloMosaic.TcCoe Idealize.SL.Sem Idealize.ShloMosaic.StableHlo

variable (m : (ℓ : Loc nD τ sig) → Buf (Elt Ideal) ℓ)

set_option maxRecDepth 65536 in
set_option maxHeartbeats 40000000 in
/-- The first propagation, at %49, from the Laplacian weights at %32. -/
theorem prop1_eq (c : Dev nD) :
    @Eq (FVec Ideal S100000x128 .f32) (V m c main_v49) (Host.scatterAdd scatter_S100000x128_S1600000x1_S1600000x128_1_0_0_1
        (broadcastInDim S100000x128 ![] Facts₀.bcast_S_S100000x128 (constant (F := Ideal) S_ .f32 0x00000000#32)) (asCol (dstOf (m ((c : Thread nD τ).loc main_arg1))))
        (mulf (broadcastInDim S1600000x128 ![0, 1] Facts₀.bcast_S1600000x1_S1600000x128_0_1
            (broadcastInDim S1600000x1 ![0] Facts₀.bcast_S1600000_S1600000x1_0 (V m c main_v32 : FVec Ideal S1600000 .f32)))
          (Host.gather gather_S100000x128_S1600000x1_S1600000x128_1_0_n_n_0_1_1128 (m ((c : Thread nD τ).loc main_arg0)) (asCol (wrapIdx (srcOf (m ((c : Thread nD τ).loc main_arg1)))))))) := by
  unfold asCol wrapIdx srcOf dstOf
  simp only [V, hostOps0, hostOps0_1, hostOps0_2, hostOps0_3, hostOps0_4, hostOps0_5, hostOps0_6, List.flatten_cons, List.flatten_nil,
    List.append_nil, List.cons_append, List.nil_append]
  after_results_simp
  all_goals rfl

/-- The region finds T1 x at %49. -/
theorem tx1_eq (c : Dev nD) :
    @Eq (FVec Ideal S100000x128 .f32) (V m c main_v49) (cheb1 (m ((c : Thread nD τ).loc main_arg0)) (m ((c : Thread nD τ).loc main_arg1)) (m ((c : Thread nD τ).loc main_arg2))) := by
  rw [prop1_eq m c]
  rw [lap_eq m c, dinv_eq m c, guard_eq m c, deg_eq m c, w_eq m c]
  rfl

end Cert.KernelIdeal.Prelude

end
-- ==== Proof.Prelude2.lean ====
/-
  The kernel's host side, read back one stage at a time.

  The region's array contents are the fold of the program's host operations over the launch memory. Read back at one
  buffer, the fold gives that stage's operation applied to the fold read back at the operands' buffers: each lemma below
  states one stage in terms of the stages it reads, so that no comparison ever has to open an earlier stage. Chained, they
  say that the region finds `HostSide.cheb1` at %49 and `HostSide.cheb2` at %69.
  Here: the second propagation, doubled and with x subtracted (%69), and the chain closed: the region finds T2 x at %69.
-/
import proofs.«121442_j27462020891069_1_alg».proof.Proof.KernelIdealFrameP
import proofs.«121442_j27462020891069_1_alg».proof.Proof.HostSide
import proofs.«121442_j27462020891069_1_alg».proof.Proof.PreludeA
import proofs.«121442_j27462020891069_1_alg».proof.Proof.PreludeB
import proofs.«121442_j27462020891069_1_alg».proof.Proof.PreludeC
import proofs.«121442_j27462020891069_1_alg».proof.Proof.Prelude1
import Idealize.ShloMosaic.Lib.StableHlo.Run

noncomputable section

namespace Cert.KernelIdeal.Prelude

open Cert.KernelIdeal Cert.KernelIdeal.Gen Cert.KernelIdeal.GenP Cert.KernelIdeal.HostSide
open Idealize.ShloMosaic Idealize.ShloMosaic.TcCoe Idealize.SL.Sem Idealize.ShloMosaic.StableHlo

variable (m : (ℓ : Loc nD τ sig) → Buf (Elt Ideal) ℓ)

set_option maxRecDepth 65536 in
set_option maxHeartbeats 40000000 in
/-- 2 · (the propagation of what is at %49) − x, at %69. -/
theorem prop2_eq (c : Dev nD) :
    @Eq (FVec Ideal S100000x128 .f32) (V m c main_v69) (subf (mulf (broadcastInDim S100000x128 ![] Facts₀.bcast_S_S100000x128 (constant (F := Ideal) S_ .f32 0x40000000#32))
        (Host.scatterAdd scatter_S100000x128_S1600000x1_S1600000x128_1_0_0_1
        (broadcastInDim S100000x128 ![] Facts₀.bcast_S_S100000x128 (constant (F := Ideal) S_ .f32 0x00000000#32)) (asCol (dstOf (m ((c : Thread nD τ).loc main_arg1))))
        (mulf (broadcastInDim S1600000x128 ![0, 1] Facts₀.bcast_S1600000x1_S1600000x128_0_1
            (broadcastInDim S1600000x1 ![0] Facts₀.bcast_S1600000_S1600000x1_0 (V m c main_v32 : FVec Ideal S1600000 .f32)))
          (Host.gather gather_S100000x128_S1600000x1_S1600000x128_1_0_n_n_0_1_1128 (V m c main_v49 : FVec Ideal S100000x128 .f32) (asCol (wrapIdx (srcOf (m ((c : Thread nD τ).loc main_arg1))))))))) (m ((c : Thread nD τ).loc main_arg0))) := by
  unfold asCol wrapIdx srcOf dstOf
  simp only [V, hostOps0, hostOps0_1, hostOps0_2, hostOps0_3, hostOps0_4, hostOps0_5, hostOps0_6, List.flatten_cons, List.flatten_nil,
    List.append_nil, List.cons_append, List.nil_append]
  after_results_simp
  all_goals rfl

/-- The region finds T2 x at %69. -/
theorem tx2_eq (c : Dev nD) :
    @Eq (FVec Ideal S100000x128 .f32) (V m c main_v69) (cheb2 (m ((c : Thread nD τ).loc main_arg0)) (m ((c : Thread nD τ).loc main_arg1)) (m ((c : Thread nD τ).loc main_arg2))) := by
  rw [prop2_eq m c, tx1_eq m c]
  rw [lap_eq m c, dinv_eq m c, guard_eq m c, deg_eq m c, w_eq m c]
  rfl

end Cert.KernelIdeal.Prelude

end
-- ==== Proof.PreludeRef.lean ====
/-
  The reference's two propagated matrices are the same functions of x, the edge list and the edge weights.

  The reference's program applies, up to its stage %69, the same host operations in the same order as the kernel's program
  (it slices the edge list anew before each propagation, which gives the same rows). So its stage %49 is `HostSide.cheb1`
  and its stage %69 is `HostSide.cheb2`: both sides unfold to the same composition of the same operations; only the names
  of the shapes and of the dimension records differ between the two programs' files, and those unfold to the same literals.
-/
import proofs.«121442_j27462020891069_1_alg».proof.Proof.Gen.ReferenceIdeal.Read
import proofs.«121442_j27462020891069_1_alg».proof.Proof.HostSide

noncomputable section

namespace Cert.ReferenceIdeal.Prelude

open Idealize.ShloMosaic

set_option maxRecDepth 65536 in
set_option maxHeartbeats 40000000 in
/-- The reference's stage %49 is T1 x. -/
theorem tx1_eq (x : Cert.KernelIdeal.HostSide.Feat) (e : Cert.KernelIdeal.HostSide.Edges) (w : Cert.KernelIdeal.HostSide.EdgeVal) :
    Cert.ReferenceIdeal.Read.val_main_v49 (F := Ideal) x e w = Cert.KernelIdeal.HostSide.cheb1 x e w := by
  unfold Cert.KernelIdeal.HostSide.cheb1 Cert.KernelIdeal.HostSide.propagate Cert.KernelIdeal.HostSide.lapWeights Cert.KernelIdeal.HostSide.invSqrtDeg Cert.KernelIdeal.HostSide.degree Cert.KernelIdeal.HostSide.loopless Cert.KernelIdeal.HostSide.asCol Cert.KernelIdeal.HostSide.wrapIdx Cert.KernelIdeal.HostSide.srcOf Cert.KernelIdeal.HostSide.dstOf
  simp only [
    Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_cst,
    Cert.ReferenceIdeal.Read.val_main_call0_v0, Cert.ReferenceIdeal.Read.val_main_call0_v1, Cert.ReferenceIdeal.Read.val_main_v5, Cert.ReferenceIdeal.Read.val_main_cst_0, Cert.ReferenceIdeal.Read.val_main_v6, Cert.ReferenceIdeal.Read.val_main_v7,
    Cert.ReferenceIdeal.Read.val_main_v8, Cert.ReferenceIdeal.Read.val_main_cst_1, Cert.ReferenceIdeal.Read.val_main_v9, Cert.ReferenceIdeal.Read.val_main_v10, Cert.ReferenceIdeal.Read.val_main_cst_2, Cert.ReferenceIdeal.Read.val_main_v11,
    Cert.ReferenceIdeal.Read.val_main_v12, Cert.ReferenceIdeal.Read.val_main_cst_3, Cert.ReferenceIdeal.Read.val_main_call1_v0, Cert.ReferenceIdeal.Read.val_main_call1_v1, Cert.ReferenceIdeal.Read.val_main_v13, Cert.ReferenceIdeal.Read.val_main_v14,
    Cert.ReferenceIdeal.Read.val_main_cst_4, Cert.ReferenceIdeal.Read.val_main_call2_v0, Cert.ReferenceIdeal.Read.val_main_call2_v1, Cert.ReferenceIdeal.Read.val_main_v15, Cert.ReferenceIdeal.Read.val_main_c, Cert.ReferenceIdeal.Read.val_main_v16,
    Cert.ReferenceIdeal.Read.val_main_v17, Cert.ReferenceIdeal.Read.val_main_c_5, Cert.ReferenceIdeal.Read.val_main_v18, Cert.ReferenceIdeal.Read.val_main_v19, Cert.ReferenceIdeal.Read.val_main_v20, Cert.ReferenceIdeal.Read.val_main_v21,
    Cert.ReferenceIdeal.Read.val_main_v22, Cert.ReferenceIdeal.Read.val_main_v23, Cert.ReferenceIdeal.Read.val_main_v24, Cert.ReferenceIdeal.Read.val_main_c_6, Cert.ReferenceIdeal.Read.val_main_v25, Cert.ReferenceIdeal.Read.val_main_v26,
    Cert.ReferenceIdeal.Read.val_main_c_7, Cert.ReferenceIdeal.Read.val_main_v27, Cert.ReferenceIdeal.Read.val_main_v28, Cert.ReferenceIdeal.Read.val_main_v29, Cert.ReferenceIdeal.Read.val_main_v30, Cert.ReferenceIdeal.Read.val_main_v31,
    Cert.ReferenceIdeal.Read.val_main_v32, Cert.ReferenceIdeal.Read.val_main_v33, Cert.ReferenceIdeal.Read.val_main_v34, Cert.ReferenceIdeal.Read.val_main_v35, Cert.ReferenceIdeal.Read.val_main_v36, Cert.ReferenceIdeal.Read.val_main_v37,
    Cert.ReferenceIdeal.Read.val_main_c_8, Cert.ReferenceIdeal.Read.val_main_v38, Cert.ReferenceIdeal.Read.val_main_v39, Cert.ReferenceIdeal.Read.val_main_c_9, Cert.ReferenceIdeal.Read.val_main_v40, Cert.ReferenceIdeal.Read.val_main_v41,
    Cert.ReferenceIdeal.Read.val_main_v42, Cert.ReferenceIdeal.Read.val_main_v43, Cert.ReferenceIdeal.Read.val_main_v44, Cert.ReferenceIdeal.Read.val_main_v45, Cert.ReferenceIdeal.Read.val_main_v46, Cert.ReferenceIdeal.Read.val_main_cst_10,
    Cert.ReferenceIdeal.Read.val_main_v47, Cert.ReferenceIdeal.Read.val_main_v48, Cert.ReferenceIdeal.Read.val_main_v49]
  rfl

set_option maxRecDepth 65536 in
set_option maxHeartbeats 40000000 in
/-- The reference's stage %69 is T2 x. -/
theorem tx2_eq (x : Cert.KernelIdeal.HostSide.Feat) (e : Cert.KernelIdeal.HostSide.Edges) (w : Cert.KernelIdeal.HostSide.EdgeVal) :
    Cert.ReferenceIdeal.Read.val_main_v69 (F := Ideal) x e w = Cert.KernelIdeal.HostSide.cheb2 x e w := by
  unfold Cert.KernelIdeal.HostSide.cheb2 Cert.KernelIdeal.HostSide.cheb1 Cert.KernelIdeal.HostSide.propagate Cert.KernelIdeal.HostSide.lapWeights Cert.KernelIdeal.HostSide.invSqrtDeg Cert.KernelIdeal.HostSide.degree Cert.KernelIdeal.HostSide.loopless Cert.KernelIdeal.HostSide.asCol Cert.KernelIdeal.HostSide.wrapIdx Cert.KernelIdeal.HostSide.srcOf Cert.KernelIdeal.HostSide.dstOf
  simp only [
    Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_cst,
    Cert.ReferenceIdeal.Read.val_main_call0_v0, Cert.ReferenceIdeal.Read.val_main_call0_v1, Cert.ReferenceIdeal.Read.val_main_v5, Cert.ReferenceIdeal.Read.val_main_cst_0, Cert.ReferenceIdeal.Read.val_main_v6, Cert.ReferenceIdeal.Read.val_main_v7,
    Cert.ReferenceIdeal.Read.val_main_v8, Cert.ReferenceIdeal.Read.val_main_cst_1, Cert.ReferenceIdeal.Read.val_main_v9, Cert.ReferenceIdeal.Read.val_main_v10, Cert.ReferenceIdeal.Read.val_main_cst_2, Cert.ReferenceIdeal.Read.val_main_v11,
    Cert.ReferenceIdeal.Read.val_main_v12, Cert.ReferenceIdeal.Read.val_main_cst_3, Cert.ReferenceIdeal.Read.val_main_call1_v0, Cert.ReferenceIdeal.Read.val_main_call1_v1, Cert.ReferenceIdeal.Read.val_main_v13, Cert.ReferenceIdeal.Read.val_main_v14,
    Cert.ReferenceIdeal.Read.val_main_cst_4, Cert.ReferenceIdeal.Read.val_main_call2_v0, Cert.ReferenceIdeal.Read.val_main_call2_v1, Cert.ReferenceIdeal.Read.val_main_v15, Cert.ReferenceIdeal.Read.val_main_c, Cert.ReferenceIdeal.Read.val_main_v16,
    Cert.ReferenceIdeal.Read.val_main_v17, Cert.ReferenceIdeal.Read.val_main_c_5, Cert.ReferenceIdeal.Read.val_main_v18, Cert.ReferenceIdeal.Read.val_main_v19, Cert.ReferenceIdeal.Read.val_main_v20, Cert.ReferenceIdeal.Read.val_main_v21,
    Cert.ReferenceIdeal.Read.val_main_v22, Cert.ReferenceIdeal.Read.val_main_v23, Cert.ReferenceIdeal.Read.val_main_v24, Cert.ReferenceIdeal.Read.val_main_c_6, Cert.ReferenceIdeal.Read.val_main_v25, Cert.ReferenceIdeal.Read.val_main_v26,
    Cert.ReferenceIdeal.Read.val_main_c_7, Cert.ReferenceIdeal.Read.val_main_v27, Cert.ReferenceIdeal.Read.val_main_v28, Cert.ReferenceIdeal.Read.val_main_v29, Cert.ReferenceIdeal.Read.val_main_v30, Cert.ReferenceIdeal.Read.val_main_v31,
    Cert.ReferenceIdeal.Read.val_main_v32, Cert.ReferenceIdeal.Read.val_main_v33, Cert.ReferenceIdeal.Read.val_main_v34, Cert.ReferenceIdeal.Read.val_main_v35, Cert.ReferenceIdeal.Read.val_main_v36, Cert.ReferenceIdeal.Read.val_main_v37,
    Cert.ReferenceIdeal.Read.val_main_c_8, Cert.ReferenceIdeal.Read.val_main_v38, Cert.ReferenceIdeal.Read.val_main_v39, Cert.ReferenceIdeal.Read.val_main_c_9, Cert.ReferenceIdeal.Read.val_main_v40, Cert.ReferenceIdeal.Read.val_main_v41,
    Cert.ReferenceIdeal.Read.val_main_v42, Cert.ReferenceIdeal.Read.val_main_v43, Cert.ReferenceIdeal.Read.val_main_v44, Cert.ReferenceIdeal.Read.val_main_v45, Cert.ReferenceIdeal.Read.val_main_v46, Cert.ReferenceIdeal.Read.val_main_cst_10,
    Cert.ReferenceIdeal.Read.val_main_v47, Cert.ReferenceIdeal.Read.val_main_v48, Cert.ReferenceIdeal.Read.val_main_v49, Cert.ReferenceIdeal.Read.val_main_v50, Cert.ReferenceIdeal.Read.val_main_v51, Cert.ReferenceIdeal.Read.val_main_v52,
    Cert.ReferenceIdeal.Read.val_main_v53, Cert.ReferenceIdeal.Read.val_main_v54, Cert.ReferenceIdeal.Read.val_main_c_11, Cert.ReferenceIdeal.Read.val_main_v55, Cert.ReferenceIdeal.Read.val_main_v56, Cert.ReferenceIdeal.Read.val_main_c_12,
    Cert.ReferenceIdeal.Read.val_main_v57, Cert.ReferenceIdeal.Read.val_main_v58, Cert.ReferenceIdeal.Read.val_main_v59, Cert.ReferenceIdeal.Read.val_main_v60, Cert.ReferenceIdeal.Read.val_main_v61, Cert.ReferenceIdeal.Read.val_main_v62,
    Cert.ReferenceIdeal.Read.val_main_v63, Cert.ReferenceIdeal.Read.val_main_cst_13, Cert.ReferenceIdeal.Read.val_main_v64, Cert.ReferenceIdeal.Read.val_main_v65, Cert.ReferenceIdeal.Read.val_main_v66, Cert.ReferenceIdeal.Read.val_main_cst_14,
    Cert.ReferenceIdeal.Read.val_main_v67, Cert.ReferenceIdeal.Read.val_main_v68, Cert.ReferenceIdeal.Read.val_main_v69]
  rfl

end Cert.ReferenceIdeal.Prelude

end
-- ==== Proof.lean ====
/-
  The claim for the multi-scale Chebyshev graph convolution: the Pallas program against its jnp reference, on the
  extended reals.

  Both programs first compute, on the host and with the same operations, the three Chebyshev feature matrices of the
  100000 nodes — T0 x = x, T1 x = L x and T2 x = 2 L (T1 x) − x for the scaled graph Laplacian L built from the edge list and
  the edge weights (gathers, scatter-adds over the 1600000 edges, a reciprocal square root of the degrees). They differ in
  the dense last stage only: the kernel projects 1000 nodes per grid point, with its operands rounded to bf16 on the way
  into each matrix product; the reference takes three whole-matrix products per stretch and concatenates. On the extended
  reals a change of float format is the identity and a matrix product is the exact sum over the contraction index, so both
  write, at output entry (r, q), the same sums grouped in the same way: `Cert.Cheb.G` (Proof/Spec.lean). No law of
  extended-real arithmetic is used, and the precondition (finite inputs) is never opened.

  The pieces: the body's stored block read at an entry (Proof/Payload.lean); every grid point writes its block of one
  whole-matrix function and the blocks tile the output (Proof/KernelValue.lean); the reference's result read at an entry
  (Proof/RefValue.lean); the graph side as functions of x, the edge list and the edge weights (Proof/HostSide.lean), which the region finds at its
  two propagated operands (Proof/Prelude1.lean, Proof/Prelude2.lean) and the reference computes at its stages %49 and %69
  (Proof/PreludeRef.lean). The three
  frames are the programs' runs with the results dropped; the idealization rewrote nothing, so `preserves` is trivial.
-/
import proofs.«121442_j27462020891069_1_alg».proof.Defs
import proofs.«121442_j27462020891069_1_alg».proof.Proof.Gen.Kernel
import proofs.«121442_j27462020891069_1_alg».proof.Proof.Gen.Kernel.Skeleton
import proofs.«121442_j27462020891069_1_alg».proof.Proof.Gen.Kernel.Launch
import proofs.«121442_j27462020891069_1_alg».proof.Proof.Gen.Kernel.Points
import proofs.«121442_j27462020891069_1_alg».proof.Proof.KernelFrameP
import proofs.«121442_j27462020891069_1_alg».proof.Proof.Gen.KernelIdeal
import proofs.«121442_j27462020891069_1_alg».proof.Proof.Gen.KernelIdeal.Skeleton
import proofs.«121442_j27462020891069_1_alg».proof.Proof.Gen.KernelIdeal.Launch
import proofs.«121442_j27462020891069_1_alg».proof.Proof.Gen.KernelIdeal.Points
import proofs.«121442_j27462020891069_1_alg».proof.Proof.KernelIdealFrameP
import proofs.«121442_j27462020891069_1_alg».proof.Proof.Gen.ReferenceIdeal
import proofs.«121442_j27462020891069_1_alg».proof.Proof.Gen.Pre_finite_inputs
import proofs.«121442_j27462020891069_1_alg».proof.Proof.KernelIdealValueP
import proofs.«121442_j27462020891069_1_alg».proof.Proof.Gen.ReferenceIdeal.Run
import proofs.«121442_j27462020891069_1_alg».proof.Proof.Gen.ReferenceIdeal.Read
import proofs.«121442_j27462020891069_1_alg».proof.Proof.KernelValue
import proofs.«121442_j27462020891069_1_alg».proof.Proof.RefValue
import proofs.«121442_j27462020891069_1_alg».proof.Proof.Prelude1
import proofs.«121442_j27462020891069_1_alg».proof.Proof.Prelude2
import proofs.«121442_j27462020891069_1_alg».proof.Proof.PreludeRef
import proofs.«121442_j27462020891069_1_alg».proof.Proof.HostSide
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the twelve arguments both programs end with the same output matrix: `G` of x, the two
    propagated matrices, the weights and the biases. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v88_eq, Cert.ReferenceIdeal.Whole.result_eq, a0, a1, a2, a3, a4, a5, a6, a7, a8, a9, a10, a11,
    Cert.ReferenceIdeal.Prelude.tx1_eq, Cert.ReferenceIdeal.Prelude.tx2_eq]
  show _ = Cert.Cheb.G (Cert.KernelIdeal.GenP.V m c Cert.KernelIdeal.main_arg0) (Cert.KernelIdeal.GenP.V m c Cert.KernelIdeal.main_v49)
    (Cert.KernelIdeal.GenP.V m c Cert.KernelIdeal.main_v69) (Cert.KernelIdeal.GenP.V m c Cert.KernelIdeal.main_arg3)
    (Cert.KernelIdeal.GenP.V m c Cert.KernelIdeal.main_arg4) (Cert.KernelIdeal.GenP.V m c Cert.KernelIdeal.main_arg5)
    (Cert.KernelIdeal.GenP.V m c Cert.KernelIdeal.main_arg6) (Cert.KernelIdeal.GenP.V m c Cert.KernelIdeal.main_arg7)
    (Cert.KernelIdeal.GenP.V m c Cert.KernelIdeal.main_arg8) (Cert.KernelIdeal.GenP.V m c Cert.KernelIdeal.main_arg9)
    (Cert.KernelIdeal.GenP.V m c Cert.KernelIdeal.main_arg10) (Cert.KernelIdeal.GenP.V m c Cert.KernelIdeal.main_arg11)
  rw [Cert.KernelIdeal.Prelude.tx1_eq m c, Cert.KernelIdeal.Prelude.tx2_eq m c, Cert.KernelIdeal.GenP.V_main_arg0 m c,
    Cert.KernelIdeal.GenP.V_main_arg3 m c, Cert.KernelIdeal.GenP.V_main_arg4 m c, Cert.KernelIdeal.GenP.V_main_arg5 m c,
    Cert.KernelIdeal.GenP.V_main_arg6 m c, Cert.KernelIdeal.GenP.V_main_arg7 m c, Cert.KernelIdeal.GenP.V_main_arg8 m c,
    Cert.KernelIdeal.GenP.V_main_arg9 m c, Cert.KernelIdeal.GenP.V_main_arg10 m c, Cert.KernelIdeal.GenP.V_main_arg11 m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
